-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x8 : Shape := ⟨2, ![512, 8]⟩
abbrev S8 : Shape := ⟨1, ![8]⟩
abbrev S8x8 : Shape := ⟨2, ![8, 8]⟩
abbrev S8x512 : Shape := ⟨2, ![8, 512]⟩
abbrev S512 : Shape := ⟨1, ![512]⟩
abbrev S512x16 : Shape := ⟨2, ![512, 16]⟩
abbrev S8193x1024 : Shape := ⟨2, ![8193, 1024]⟩
abbrev S1024 : Shape := ⟨1, ![1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x8 : S_.BroadcastsInDim S512x8 (![] : Fin 0 → Fin S512x8.rank)
  reducesTo_S512x8_S_d0_1 : S512x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S8x512 : S_.BroadcastsInDim S8x512 (![] : Fin 0 → Fin S8x512.rank)
  reducesTo_S8x512_S_d0_1 : S8x512.ReducesTo [0, 1] S_
  bcast_S_S512 : S_.BroadcastsInDim S512 (![] : Fin 0 → Fin S512.rank)
  reducesTo_S512_S_d0 : S512.ReducesTo [0] S_
  bcast_S_S512x16 : S_.BroadcastsInDim S512x16 (![] : Fin 0 → Fin S512x16.rank)
  reducesTo_S512x16_S_d0_1 : S512x16.ReducesTo [0, 1] S_
  bcast_S_S8193x1024 : S_.BroadcastsInDim S8193x1024 (![] : Fin 0 → Fin S8193x1024.rank)
  reducesTo_S8193x1024_S_d0_1 : S8193x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S512x16 .f32) (main_arg8 : FVec F S512x16 .f32) (main_arg9 : FVec F S8193x1024 .f32) (main_arg10 : FVec F S1024 .f32) (main_v33 : IVec S_ 1) : IVec S_ 1 :=
  let main_v34 : FVec F S512x16 .f32 := Host.absf main_arg7
  let main_cst_12 : FVec F S_ .f32 := constant S_ .f32 0x7F800000#32
  let main_v35 : FVec F S512x16 .f32 := broadcastInDim S512x16 ![] bcast_S_S512x16 main_cst_12
  let main_v36 : IVec S512x16 1 := cmpf .olt main_v34 main_v35
  let main_c_13 : IVec S_ 1 := constantI S_ 1 1#1
  let main_v37 : IVec S_ 1 := (fun x v => Host.reduce IntOp.andi x v reducesTo_S512x16_S_d0_1 h_S_) main_v36 main_c_13
  let main_v38 : IVec S_ 1 := andi main_v33 main_v37
  let main_v39 : FVec F S512x16 .f32 := Host.absf main_arg8
  let main_cst_14 : FVec F S_ .f32 := constant S_ .f32 0x7F800000#32
  let main_v40 : FVec F S512x16 .f32 := broadcastInDim S512x16 ![] bcast_S_S512x16 main_cst_14
  let main_v41 : IVec S512x16 1 := cmpf .olt main_v39 main_v40
  let main_c_15 : IVec S_ 1 := constantI S_ 1 1#1
  let main_v42 : IVec S_ 1 := (fun x v => Host.reduce IntOp.andi x v reducesTo_S512x16_S_d0_1 h_S_) main_v41 main_c_15
  let main_v43 : IVec S_ 1 := andi main_v38 main_v42
  let main_v44 : FVec F S8193x1024 .f32 := Host.absf main_arg9
  let main_cst_16 : FVec F S_ .f32 := constant S_ .f32 0x7F800000#32
  let main_v45 : FVec F S8193x1024 .f32 := broadcastInDim S8193x1024 ![] bcast_S_S8193x1024 main_cst_16
  let main_v46 : IVec S8193x1024 1 := cmpf .olt main_v44 main_v45
  let main_c_17 : IVec S_ 1 := constantI S_ 1 1#1
  let main_v47 : IVec S_ 1 := (fun x v => Host.reduce IntOp.andi x v reducesTo_S8193x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S8 .f32) (main_arg5 : FVec F S8x512 .f32) (main_arg6 : FVec F S512 .f32) (main_arg7 : FVec F S512x16 .f32) (main_arg8 : FVec F S512x16 .f32) (main_arg9 : FVec F S8193x1024 .f32) (main_arg10 : FVec F S1024 .f32) (main_v13 : IVec S_ 1) (main_v16 : IVec S8x8 1) : IVec S_ 1 :=
  let main_c_5 : IVec S_ 1 := constantI S_ 1 1#1
  let main_v17 : IVec S_ 1 := (fun x v => Host.reduce IntOp.andi x v reducesTo_S8x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x512 .f32 := Host.absf main_arg5
  let main_cst_8 : FVec F S_ .f32 := constant S_ .f32 0x7F800000#32
  let main_v25 : FVec F S8x512 .f32 := broadcastInDim S8x512 ![] bcast_S_S8x512 main_cst_8
  let main_v26 : IVec S8x512 1 := cmpf .olt main_v24 main_v25
  let main_c_9 : IVec S_ 1 := constantI S_ 1 1#1
  let main_v27 : IVec S_ 1 := (fun x v => Host.reduce IntOp.andi x v reducesTo_S8x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x512 .f32) (main_arg1 : FVec F S512x8 .f32) (main_arg2 : FVec F S8 .f32) (main_arg3 : FVec F S8x8 .f32) (main_arg4 : FVec F S8 .f32) (main_arg5 : FVec F S8x512 .f32) (main_arg6 : FVec F S512 .f32) (main_arg7 : FVec F S512x16 .f32) (main_arg8 : FVec F S512x16 .f32) (main_arg9 : FVec F S8193x1024 .f32) (main_arg10 : FVec F S1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x8 .f32 := Host.absf main_arg1
  let main_cst_0 : FVec F S_ .f32 := constant S_ .f32 0x7F800000#32
  let main_v5 : FVec F S512x8 .f32 := broadcastInDim S512x8 ![] bcast_S_S512x8 main_cst_0
  let main_v6 : IVec S512x8 1 := cmpf .olt main_v4 main_v5
  let main_c_1 : IVec S_ 1 := constantI S_ 1 1#1
  let main_v7 : IVec S_ 1 := (fun x v => Host.reduce IntOp.andi x v reducesTo_S512x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x8 .f32 := Host.absf main_arg3
  let main_cst_4 : FVec F S_ .f32 := constant S_ .f32 0x7F800000#32
  let main_v15 : FVec F S8x8 .f32 := broadcastInDim S8x8 ![] bcast_S_S8x8 main_cst_4
  let main_v16 : IVec S8x8 1 := cmpf .olt main_v14 main_v15
  fn_part1 (F := F) main_arg4 main_arg5 main_arg6 main_arg7 main_arg8 main_arg9 main_arg10 main_v13 main_v16
-- ==== Kernel.lean ====
abbrev S8192x512 : Shape := ⟨2, ![8192, 512]⟩
abbrev S512x8 : Shape := ⟨2, ![512, 8]⟩
abbrev S8 : Shape := ⟨1, ![8]⟩
abbrev S8x8 : Shape := ⟨2, ![8, 8]⟩
abbrev S8x512 : Shape := ⟨2, ![8, 512]⟩
abbrev S512 : Shape := ⟨1, ![512]⟩
abbrev S512x16 : Shape := ⟨2, ![512, 16]⟩
abbrev S8193x1024 : Shape := ⟨2, ![8193, 1024]⟩
abbrev S1024 : Shape := ⟨1, ![1024]⟩
abbrev S_ : Shape := ⟨0, ![]⟩
abbrev S16x512 : Shape := ⟨2, ![16, 512]⟩
abbrev S8192x1024 : Shape := ⟨2, ![8192, 1024]⟩
abbrev S1x1024 : Shape := ⟨2, ![1, 1024]⟩
abbrev S512x16x1024 : Shape := ⟨3, ![512, 16, 1024]⟩
abbrev S16x512x1024 : Shape := ⟨3, ![16, 512, 1024]⟩
abbrev S1x8 : Shape := ⟨2, ![1, 8]⟩
abbrev S1x512 : Shape := ⟨2, ![1, 512]⟩
abbrev S1024x512 : Shape := ⟨2, ![1024, 512]⟩
abbrev S1024x1024 : Shape := ⟨2, ![1024, 1024]⟩
abbrev S1024x8 : Shape := ⟨2, ![1024, 8]⟩
abbrev S1024x1 : Shape := ⟨2, ![1024, 1]⟩
abbrev S1x512x1024 : Shape := ⟨3, ![1, 512, 1024]⟩
abbrev S512x1024 : Shape := ⟨2, ![512, 1024]⟩

abbrev nBuf : Space → Nat
  | .hbm => 33
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S512x8, .f32⟩
  | .hbm, ⟨2, _⟩ => ⟨S8, .f32⟩
  | .hbm, ⟨3, _⟩ => ⟨S8x8, .f32⟩
  | .hbm, ⟨4, _⟩ => ⟨S8, .f32⟩
  | .hbm, ⟨5, _⟩ => ⟨S8x512, .f32⟩
  | .hbm, ⟨6, _⟩ => ⟨S512, .f32⟩
  | .hbm, ⟨7, _⟩ => ⟨S512x16, .f32⟩
  | .hbm, ⟨8, _⟩ => ⟨S512x16, .f32⟩
  | .hbm, ⟨9, _⟩ => ⟨S8193x1024, .f32⟩
  | .hbm, ⟨10, _⟩ => ⟨S1024, .f32⟩
  | .hbm, ⟨11, _⟩ => ⟨S512x16, .f32⟩
  | .hbm, ⟨12, _⟩ => ⟨S_, .f32⟩
  | .hbm, ⟨13, _⟩ => ⟨S512x16, .f32⟩
  | .hbm, ⟨14, _⟩ => ⟨S512x16, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S512x16, .f32⟩
  | .hbm, ⟨19, _⟩ => ⟨S512x16, .f32⟩
  | .hbm, ⟨20, _⟩ => ⟨S512x16, .f32⟩
  | .hbm, ⟨21, _⟩ => ⟨S16x512, .f32⟩
  | .hbm, ⟨22, _⟩ => ⟨S16x512, .f32⟩
  | .hbm, ⟨23, _⟩ => ⟨S8192x1024, .f32⟩
  | .hbm, ⟨24, _⟩ => ⟨S1x1024, .f32⟩
  | .hbm, ⟨25, _⟩ => ⟨S512x16x1024, .f32⟩
  | .hbm, ⟨26, _⟩ => ⟨S16x512x1024, .f32⟩
  | .hbm, ⟨27, _⟩ => ⟨S16x512x1024, .bf16⟩
  | .hbm, ⟨28, _⟩ => ⟨S1x8, .f32⟩
  | .hbm, ⟨29, _⟩ => ⟨S1x8, .f32⟩
  | .hbm, ⟨30, _⟩ => ⟨S1x512, .f32⟩
  | .hbm, ⟨31, _⟩ => ⟨S1x1024, .f32⟩
  | .hbm, ⟨32, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S512x8, .f32⟩
  | .local _ .vmem, ⟨3, _⟩ => ⟨S1x8, .f32⟩
  | .local _ .vmem, ⟨4, _⟩ => ⟨S8x8, .f32⟩
  | .local _ .vmem, ⟨5, _⟩ => ⟨S1x8, .f32⟩
  | .local _ .vmem, ⟨6, _⟩ => ⟨S8x512, .f32⟩
  | .local _ .vmem, ⟨7, _⟩ => ⟨S1x512, .f32⟩
  | .local _ .vmem, ⟨8, _⟩ => ⟨S16x512, .f32⟩
  | .local _ .vmem, ⟨9, _⟩ => ⟨S16x512, .f32⟩
  | .local _ .vmem, ⟨10, _⟩ => ⟨S16x512x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S512x16 : S_.BroadcastsInDim S512x16 (![] : Fin 0 → Fin S512x16.rank)
  transposes_S512x16_S16x512_1_0 : S512x16.Transposes [1, 0] S16x512
  slices_S8193x1024_S8192x1024_0_0 : S8193x1024.Slices ![0, 0] S8192x1024
  slices_S8193x1024_S1x1024_8192_0 : S8193x1024.Slices ![8192, 0] S1x1024
  shapeCasts_S8192x1024_S512x16x1024 : S8192x1024.ShapeCasts S512x16x1024
  transposes_S512x16x1024_S16x512x1024_1_0_2 : S512x16x1024.Transposes [1, 0, 2] S16x512x1024
  bitsLt_bf16_f32 : FTy.bits .bf16 < FTy.bits .f32
  shapeCasts_S8_S1x8 : S8.ShapeCasts S1x8
  shapeCasts_S512_S1x512 : S512.ShapeCasts S1x512
  shapeCasts_S1024_S1x1024 : S1024.ShapeCasts S1x1024
  inb_S1024x512_S1024x512_0_0 : ∀ a, (![0, 0] : Fin 2 → Nat) a + S1024x512.size a ≤ S1024x512.size a
  h_S1024x512 : 0 < S1024x512.numel
  inb_S512x8_S512x8_0_0 : ∀ a, (![0, 0] : Fin 2 → Nat) a + S512x8.size a ≤ S512x8.size a
  h_S512x8 : 0 < S512x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  inb_S8x8_S8x8_0_0 : ∀ a, (![0, 0] : Fin 2 → Nat) a + S8x8.size a ≤ S8x8.size a
  h_S8x8 : 0 < S8x8.numel
  inb_S8x512_S8x512_0_0 : ∀ a, (![0, 0] : Fin 2 → Nat) a + S8x512.size a ≤ S8x512.size a
  h_S8x512 : 0 < S8x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  inb_S16x512_S1x512_0_0 : ∀ a, (![0, 0] : Fin 2 → Nat) a + S1x512.size a ≤ S16x512.size a
  shapeCasts_S1x512_S512 : S1x512.ShapeCasts S512
  inb_S16x512x1024_S1x512x1024_0_0_0 : ∀ a, (![0, 0, 0] : Fin 3 → Nat) a + S1x512x1024.size a ≤ S16x512x1024.size a
  h_S1x512x1024 : 0 < S1x512x1024.numel
  shapeCasts_S1x512x1024_S512x1024 : S1x512x1024.ShapeCasts S512x1024
  inb_S16x512_S1x512_1_0 : ∀ a, (![1, 0] : Fin 2 → Nat) a + S1x512.size a ≤ S16x512.size a
  inb_S16x512x1024_S1x512x1024_1_0_0 : ∀ a, (![1, 0, 0] : Fin 3 → Nat) a + S1x512x1024.size a ≤ S16x512x1024.size a
  inb_S16x512_S1x512_2_0 : ∀ a, (![2, 0] : Fin 2 → Nat) a + S1x512.size a ≤ S16x512.size a
  inb_S16x512x1024_S1x512x1024_2_0_0 : ∀ a, (![2, 0, 0] : Fin 3 → Nat) a + S1x512x1024.size a ≤ S16x512x1024.size a
  inb_S16x512_S1x512_3_0 : ∀ a, (![3, 0] : Fin 2 → Nat) a + S1x512.size a ≤ S16x512.size a
  inb_S16x512x1024_S1x512x1024_3_0_0 : ∀ a, (![3, 0, 0] : Fin 3 → Nat) a + S1x512x1024.size a ≤ S16x512x1024.size a
  inb_S16x512_S1x512_4_0 : ∀ a, (![4, 0] : Fin 2 → Nat) a + S1x512.size a ≤ S16x512.size a
  inb_S16x512x1024_S1x512x1024_4_0_0 : ∀ a, (![4, 0, 0] : Fin 3 → Nat) a + S1x512x1024.size a ≤ S16x512x1024.size a
  inb_S16x512_S1x512_5_0 : ∀ a, (![5, 0] : Fin 2 → Nat) a + S1x512.size a ≤ S16x512.size a
  inb_S16x512x1024_S1x512x1024_5_0_0 : ∀ a, (![5, 0, 0] : Fin 3 → Nat) a + S1x512x1024.size a ≤ S16x512x1024.size a
  inb_S16x512_S1x512_6_0 : ∀ a, (![6, 0] : Fin 2 → Nat) a + S1x512.size a ≤ S16x512.size a
  inb_S16x512x1024_S1x512x1024_6_0_0 : ∀ a, (![6, 0, 0] : Fin 3 → Nat) a + S1x512x1024.size a ≤ S16x512x1024.size a
  inb_S16x512_S1x512_7_0 : ∀ a, (![7, 0] : Fin 2 → Nat) a + S1x512.size a ≤ S16x512.size a
  inb_S16x512x1024_S1x512x1024_7_0_0 : ∀ a, (![7, 0, 0] : Fin 3 → Nat) a + S1x512x1024.size a ≤ S16x512x1024.size a
  inb_S16x512_S1x512_8_0 : ∀ a, (![8, 0] : Fin 2 → Nat) a + S1x512.size a ≤ S16x512.size a
  inb_S16x512x1024_S1x512x1024_8_0_0 : ∀ a, (![8, 0, 0] : Fin 3 → Nat) a + S1x512x1024.size a ≤ S16x512x1024.size a
  inb_S16x512_S1x512_9_0 : ∀ a, (![9, 0] : Fin 2 → Nat) a + S1x512.size a ≤ S16x512.size a
  inb_S16x512x1024_S1x512x1024_9_0_0 : ∀ a, (![9, 0, 0] : Fin 3 → Nat) a + S1x512x1024.size a ≤ S16x512x1024.size a
  inb_S16x512_S1x512_10_0 : ∀ a, (![10, 0] : Fin 2 → Nat) a + S1x512.size a ≤ S16x512.size a
  inb_S16x512x1024_S1x512x1024_10_0_0 : ∀ a, (![10, 0, 0] : Fin 3 → Nat) a + S1x512x1024.size a ≤ S16x512x1024.size a
  inb_S16x512_S1x512_11_0 : ∀ a, (![11, 0] : Fin 2 → Nat) a + S1x512.size a ≤ S16x512.size a
  inb_S16x512x1024_S1x512x1024_11_0_0 : ∀ a, (![11, 0, 0] : Fin 3 → Nat) a + S1x512x1024.size a ≤ S16x512x1024.size a
  inb_S16x512_S1x512_12_0 : ∀ a, (![12, 0] : Fin 2 → Nat) a + S1x512.size a ≤ S16x512.size a
  inb_S16x512x1024_S1x512x1024_12_0_0 : ∀ a, (![12, 0, 0] : Fin 3 → Nat) a + S1x512x1024.size a ≤ S16x512x1024.size a
  inb_S16x512_S1x512_13_0 : ∀ a, (![13, 0] : Fin 2 → Nat) a + S1x512.size a ≤ S16x512.size a
  inb_S16x512x1024_S1x512x1024_13_0_0 : ∀ a, (![13, 0, 0] : Fin 3 → Nat) a + S1x512x1024.size a ≤ S16x512x1024.size a
  inb_S16x512_S1x512_14_0 : ∀ a, (![14, 0] : Fin 2 → Nat) a + S1x512.size a ≤ S16x512.size a
  inb_S16x512x1024_S1x512x1024_14_0_0 : ∀ a, (![14, 0, 0] : Fin 3 → Nat) a + S1x512x1024.size a ≤ S16x512x1024.size a
  inb_S16x512_S1x512_15_0 : ∀ a, (![15, 0] : Fin 2 → Nat) a + S1x512.size a ≤ S16x512.size a
  inb_S16x512x1024_S1x512x1024_15_0_0 : ∀ a, (![15, 0, 0] : Fin 3 → Nat) a + S1x512x1024.size a ≤ S16x512x1024.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S512x8_S1024x8_1_0_0_1_n_n_wf : DotDims.WF S1024x512 S512x8 S1024x8 [1] [0] [0] [1] [] []
  dot_S1024x8_S8x8_S1024x8_1_0_0_1_n_n_wf : DotDims.WF S1024x8 S8x8 S1024x8 [1] [0] [0] [1] [] []
  dot_S1024x8_S8x512_S1024x512_1_0_0_1_n_n_wf : DotDims.WF S1024x8 S8x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x8.size a ≤ S512x8.size a
  hwx0_1 : ∀ i : grid0.Coords, EltTy.bits .f32 = 32 ∨ (Rect.block (s := S512x8) S512x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x8.size a ≤ S8x8.size a
  hwx0_3 : ∀ i : grid0.Coords, EltTy.bits .f32 = 32 ∨ (Rect.block (s := S8x8) S8x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S8x512.size a
  hwx0_5 : ∀ i : grid0.Coords, EltTy.bits .f32 = 32 ∨ (Rect.block (s := S8x512) S8x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x512.size a ≤ S16x512.size a
  hwx0_7 : ∀ i : grid0.Coords, EltTy.bits .f32 = 32 ∨ (Rect.block (s := S16x512) S16x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x512.size a ≤ S16x512.size a
  hwx0_8 : ∀ i : grid0.Coords, EltTy.bits .f32 = 32 ∨ (Rect.block (s := S16x512) S16x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x512x1024.size a ≤ S16x512x1024.size a
  hwx0_9 : ∀ i : grid0.Coords, EltTy.bits .bf16 = 32 ∨ (Rect.block (s := S16x512x1024) S16x512x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S8192x1024.size a
  hwx0_12 : ∀ i : grid0.Coords, EltTy.bits .f32 = 32 ∨ (Rect.block (s := S8192x1024) S1024x1024.size (cc0_transform_12 i) (hinb0_12 i)).WholeWords (EltTy.packing .f32)

variable [Facts₀]

def dot_S1024x512_S512x8_S1024x8_1_0_0_1_n_n : DotDims S1024x512 S512x8 S1024x8 where
  lhsContracting := [1]
  rhsContracting := [0]
  lhsNonContracting := [0]
  rhsNonContracting := [1]
  lhsBatch := []
  rhsBatch := []
  wf := dot_S1024x512_S512x8_S1024x8_1_0_0_1_n_n_wf
def dot_S1024x8_S8x8_S1024x8_1_0_0_1_n_n : DotDims S1024x8 S8x8 S1024x8 where
  lhsContracting := [1]
  rhsContracting := [0]
  lhsNonContracting := [0]
  rhsNonContracting := [1]
  lhsBatch := []
  rhsBatch := []
  wf := dot_S1024x8_S8x8_S1024x8_1_0_0_1_n_n_wf
def dot_S1024x8_S8x512_S1024x512_1_0_0_1_n_n : DotDims S1024x8 S8x512 S1024x512 where
  lhsContracting := [1]
  rhsContracting := [0]
  lhsNonContracting := [0]
  rhsNonContracting := [1]
  lhsBatch := []
  rhsBatch := []
  wf := dot_S1024x8_S8x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S16x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S16x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S16x512x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v19) S1024x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x8 : Shape := ⟨2, ![512, 8]⟩
abbrev S8 : Shape := ⟨1, ![8]⟩
abbrev S8x8 : Shape := ⟨2, ![8, 8]⟩
abbrev S8x512 : Shape := ⟨2, ![8, 512]⟩
abbrev S512 : Shape := ⟨1, ![512]⟩
abbrev S512x16 : Shape := ⟨2, ![512, 16]⟩
abbrev S8193x1024 : Shape := ⟨2, ![8193, 1024]⟩
abbrev S1024 : Shape := ⟨1, ![1024]⟩
abbrev S8192x8 : Shape := ⟨2, ![8192, 8]⟩
abbrev S1x8 : Shape := ⟨2, ![1, 8]⟩
abbrev S_ : Shape := ⟨0, ![]⟩
abbrev S1x512 : Shape := ⟨2, ![1, 512]⟩
abbrev S1x512x16 : Shape := ⟨3, ![1, 512, 16]⟩
abbrev S8192x512x1 : Shape := ⟨3, ![8192, 512, 1]⟩
abbrev S8192x512x16 : Shape := ⟨3, ![8192, 512, 16]⟩
abbrev S8192x8192 : Shape := ⟨2, ![8192, 8192]⟩
abbrev S8192 : Shape := ⟨1, ![8192]⟩
abbrev S8192x1 : Shape := ⟨2, ![8192, 1]⟩
abbrev S8192x8193 : Shape := ⟨2, ![8192, 8193]⟩
abbrev S8192x1024 : Shape := ⟨2, ![8192, 1024]⟩
abbrev S1x1024 : Shape := ⟨2, ![1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x8, .f32⟩
  | .hbm, ⟨2, _⟩ => ⟨S8, .f32⟩
  | .hbm, ⟨3, _⟩ => ⟨S8x8, .f32⟩
  | .hbm, ⟨4, _⟩ => ⟨S8, .f32⟩
  | .hbm, ⟨5, _⟩ => ⟨S8x512, .f32⟩
  | .hbm, ⟨6, _⟩ => ⟨S512, .f32⟩
  | .hbm, ⟨7, _⟩ => ⟨S512x16, .f32⟩
  | .hbm, ⟨8, _⟩ => ⟨S512x16, .f32⟩
  | .hbm, ⟨9, _⟩ => ⟨S8193x1024, .f32⟩
  | .hbm, ⟨10, _⟩ => ⟨S1024, .f32⟩
  | .hbm, ⟨11, _⟩ => ⟨S8192x8, .f32⟩
  | .hbm, ⟨12, _⟩ => ⟨S1x8, .f32⟩
  | .hbm, ⟨13, _⟩ => ⟨S8192x8, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S_, .f32⟩
  | .hbm, ⟨18, _⟩ => ⟨S8192x8, .f32⟩
  | .hbm, ⟨19, _⟩ => ⟨S8192x8, .f32⟩
  | .hbm, ⟨20, _⟩ => ⟨S_, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S1x8, .f32⟩
  | .hbm, ⟨26, _⟩ => ⟨S8192x8, .f32⟩
  | .hbm, ⟨27, _⟩ => ⟨S8192x8, .f32⟩
  | .hbm, ⟨28, _⟩ => ⟨S8192x8, .f32⟩
  | .hbm, ⟨29, _⟩ => ⟨S8192x8, .f32⟩
  | .hbm, ⟨30, _⟩ => ⟨S_, .f32⟩
  | .hbm, ⟨31, _⟩ => ⟨S8192x8, .f32⟩
  | .hbm, ⟨32, _⟩ => ⟨S8192x8, .f32⟩
  | .hbm, ⟨33, _⟩ => ⟨S_, .f32⟩
  | .hbm, ⟨34, _⟩ => ⟨S8192x8, .f32⟩
  | .hbm, ⟨35, _⟩ => ⟨S8192x8, .f32⟩
  | .hbm, ⟨36, _⟩ => ⟨S8192x8, .f32⟩
  | .hbm, ⟨37, _⟩ => ⟨S8192x512, .f32⟩
  | .hbm, ⟨38, _⟩ => ⟨S1x512, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .i1⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S_, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S512x16, .f32⟩
  | .hbm, ⟨61, _⟩ => ⟨S1x512x16, .f32⟩
  | .hbm, ⟨62, _⟩ => ⟨S_, .f32⟩
  | .hbm, ⟨63, _⟩ => ⟨S1x512x16, .f32⟩
  | .hbm, ⟨64, _⟩ => ⟨S1x512x16, .f32⟩
  | .hbm, ⟨65, _⟩ => ⟨S8192x512x1, .f32⟩
  | .hbm, ⟨66, _⟩ => ⟨S1x512x16, .f32⟩
  | .hbm, ⟨67, _⟩ => ⟨S8192x512x16, .f32⟩
  | .hbm, ⟨68, _⟩ => ⟨S8192x512x16, .f32⟩
  | .hbm, ⟨69, _⟩ => ⟨S8192x512x16, .f32⟩
  | .hbm, ⟨70, _⟩ => ⟨S8192x512x16, .f32⟩
  | .hbm, ⟨71, _⟩ => ⟨S8192x512x16, .f32⟩
  | .hbm, ⟨72, _⟩ => ⟨S8192x512x16, .f32⟩
  | .hbm, ⟨73, _⟩ => ⟨S_, .f32⟩
  | .hbm, ⟨74, _⟩ => ⟨S8192x512x16, .f32⟩
  | .hbm, ⟨75, _⟩ => ⟨S8192x512x16, .f32⟩
  | .hbm, ⟨76, _⟩ => ⟨S8192x512x16, .f32⟩
  | .hbm, ⟨77, _⟩ => ⟨S8192x8192, .f32⟩
  | .hbm, ⟨78, _⟩ => ⟨S8192x512, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x8193, .f32⟩
  | .hbm, ⟨83, _⟩ => ⟨S8192x1024, .f32⟩
  | .hbm, ⟨84, _⟩ => ⟨S1x1024, .f32⟩
  | .hbm, ⟨85, _⟩ => ⟨S8192x1024, .f32⟩
  | .hbm, ⟨86, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_call2_cst : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_v14 : Ref sig .tc := ⟨.hbm, 54, rfl⟩
abbrev main_cst : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_cst_0 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_cst_1 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_2 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩

abbrev nD : Nat := 1
abbrev τ : Topo := Topo.v7x

variable {F : FTy → Type} [FloatOps F]

class Facts₀ : Prop where
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  bcast_S_S8192x8 : S_.BroadcastsInDim S8192x8 (![] : Fin 0 → Fin S8192x8.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S512x16_S1x512x16_1_2 : S512x16.BroadcastsInDim S1x512x16 (![1, 2] : Fin 2 → Fin S1x512x16.rank)
  bcast_S_S1x512x16 : S_.BroadcastsInDim S1x512x16 (![] : Fin 0 → Fin S1x512x16.rank)
  bcast_S8192x512_S8192x512x1_0_1 : S8192x512.BroadcastsInDim S8192x512x1 (![0, 1] : Fin 2 → Fin S8192x512x1.rank)
  bcast_S8192x512x1_S8192x512x16_0_1_2 : S8192x512x1.BroadcastsInDim S8192x512x16 (![0, 1, 2] : Fin 3 → Fin S8192x512x16.rank)
  bcast_S1x512x16_S8192x512x16_0_1_2 : S1x512x16.BroadcastsInDim S8192x512x16 (![0, 1, 2] : Fin 3 → Fin S8192x512x16.rank)
  bcast_S_S8192x512x16 : S_.BroadcastsInDim S8192x512x16 (![] : Fin 0 → Fin S8192x512x16.rank)
  shapeCasts_S8192x512x16_S8192x8192 : S8192x512x16.ShapeCasts S8192x8192
  reducesTo_S8192x512_S8192_d1 : S8192x512.ReducesTo [1] S8192
  h_S_ : 0 < S_.numel
  bcast_S8192_S8192x1_0 : S8192.BroadcastsInDim S8192x1 (![0] : Fin 1 → Fin S8192x1.rank)
  concatenates_S8192x8192_S8192x1_S8192x8193_d1 : Shape.Concatenates [S8192x8192, S8192x1] S8192x8193 1
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x512_S512x8_S8192x8_1_0_0_1_n_n_wf : DotDims.WF S8192x512 S512x8 S8192x8 [1] [0] [0] [1] [] []
  dot_S8192x8_S8x8_S8192x8_1_0_0_1_n_n_wf : DotDims.WF S8192x8 S8x8 S8192x8 [1] [0] [0] [1] [] []
  dot_S8192x8_S8x512_S8192x512_1_0_0_1_n_n_wf : DotDims.WF S8192x8 S8x512 S8192x512 [1] [0] [0] [1] [] []
  dot_S8192x8193_S8193x1024_S8192x1024_1_0_0_1_n_n_wf : DotDims.WF S8192x8193 S8193x1024 S8192x1024 [1] [0] [0] [1] [] []

variable [Facts₀]

def dot_S8192x512_S512x8_S8192x8_1_0_0_1_n_n : DotDims S8192x512 S512x8 S8192x8 where
  lhsContracting := [1]
  rhsContracting := [0]
  lhsNonContracting := [0]
  rhsNonContracting := [1]
  lhsBatch := []
  rhsBatch := []
  wf := dot_S8192x512_S512x8_S8192x8_1_0_0_1_n_n_wf
def dot_S8192x8_S8x8_S8192x8_1_0_0_1_n_n : DotDims S8192x8 S8x8 S8192x8 where
  lhsContracting := [1]
  rhsContracting := [0]
  lhsNonContracting := [0]
  rhsNonContracting := [1]
  lhsBatch := []
  rhsBatch := []
  wf := dot_S8192x8_S8x8_S8192x8_1_0_0_1_n_n_wf
def dot_S8192x8_S8x512_S8192x512_1_0_0_1_n_n : DotDims S8192x8 S8x512 S8192x512 where
  lhsContracting := [1]
  rhsContracting := [0]
  lhsNonContracting := [0]
  rhsNonContracting := [1]
  lhsBatch := []
  rhsBatch := []
  wf := dot_S8192x8_S8x512_S8192x512_1_0_0_1_n_n_wf
def dot_S8192x8193_S8193x1024_S8192x1024_1_0_0_1_n_n : DotDims S8192x8193 S8193x1024 S8192x1024 where
  lhsContracting := [1]
  rhsContracting := [0]
  lhsNonContracting := [0]
  rhsNonContracting := [1]
  lhsBatch := []
  rhsBatch := []
  wf := dot_S8192x8193_S8193x1024_S8192x1024_1_0_0_1_n_n_wf

class Facts : Prop extends Facts₀ where

variable [Facts]
-- ==== Proof.RbfSpec.lean ====
/-
  The mathematics both programs compute, written once at the level of single entries.

  One input row x ∈ ℝ̄^512 is sent through a three-layer perceptron (512 → 8 → 8 → 512, SiLU, SiLU, softplus) to a
  positive metric g; the row is warped to z_d = x_d · √g_d and log det = ∑_d log g_d. Each warped coordinate is expanded
  in 16 Gaussian radial basis functions with centers c_{d,k} and widths w_{d,k} = e^{λ_{d,k}} + tiny, and the 8192
  features together with log det are contracted against the 8193 rows of the output matrix, plus a bias.

  The two arrangements differ in two ways only.
  (1) The basis function: one side evaluates  exp(−2·((z − c)/w)²),  the other  exp(0 − (z·s − c·s)²)  with the
      precomputed s = √2 / w. For real c and real w > 0 these are equal at every extended real z (finite z by
      algebra, using (√2)² = 2; z = ±∞ because both squares are +∞ and exp(−∞) = 0).
  (2) The contraction: one side sums over the 8193 rows f of the output matrix in order; the other sums first over the
      512 coordinates d for each of the 16 basis indices k (row f = 16·d + k), adding the blocks one after the other,
      and adds the last row's term separately. Addition of extended reals is commutative and associative, so the two
      orders give one sum.
-/
import Idealize.ShloMosaic.PureOps.Ideal
import Idealize.ShloMosaic.PureOps.Ideal.Laws

noncomputable section

namespace Cert.Rbf

open Idealize.ShloMosaic

/-! ## The float words the programs spell, as extended reals -/

/-- The metric's additive floor (the word of 1e-8 in single precision). -/
def floorW : EReal := Ideal.ofBits .f32 0x322BCC77#32
/-- The widths' additive floor (the word of 1e-12 in single precision). -/
def tinyW : EReal := Ideal.ofBits .f32 0x2B8CBCCC#32
/-- The word of 2. -/
def twoW : EReal := Ideal.ofBits .f32 0x40000000#32
/-- The word of −2. -/
def negTwoW : EReal := Ideal.ofBits .f32 0xC0000000#32

/-! ## The perceptron, the warp and the log-determinant of one row -/

/-- SiLU: y · σ(y). -/
def silu (y : EReal) : EReal := y * Ideal.logistic y

/-- Softplus in its overflow-free form: max(y, 0) + log(1 + e^{−|y|}). -/
def softplus (y : EReal) : EReal := max y 0 + Ideal.log1p (Ideal.exp (-(max y (-y))))

section row

variable (W1 : Fin 512 → Fin 8 → EReal) (b1 : Fin 8 → EReal) (W2 : Fin 8 → Fin 8 → EReal) (b2 : Fin 8 → EReal)
  (W3 : Fin 8 → Fin 512 → EReal) (b3 : Fin 512 → EReal) (xr : Fin 512 → EReal)

/-- First hidden layer of the row. -/
def hid1 (i : Fin 8) : EReal := silu ((∑ d : Fin 512, xr d * W1 d i) + b1 i)

/-- Second hidden layer of the row. -/
def hid2 (j : Fin 8) : EReal := silu ((∑ i : Fin 8, hid1 W1 b1 xr i * W2 i j) + b2 j)

/-- The metric of the row: softplus of the third layer, plus the floor. -/
def metric (d : Fin 512) : EReal := softplus ((∑ j : Fin 8, hid2 W1 b1 W2 b2 xr j * W3 j d) + b3 d) + floorW

/-- The warped row: z_d = x_d · √g_d. -/
def warped (d : Fin 512) : EReal := xr d * Ideal.sqrt (metric W1 b1 W2 b2 W3 b3 xr d)

/-- The row's log-determinant: ∑_d log g_d. -/
def logdet : EReal := ∑ d : Fin 512, Ideal.log (metric W1 b1 W2 b2 W3 b3 xr d)

end row

/-! ## The two forms of a basis function -/

/-- exp(−2 · ((z − c)/w)²). -/
def basisQ (z c w : EReal) : EReal := Ideal.exp (negTwoW * (Ideal.div (z - c) w * Ideal.div (z - c) w))

/-- exp(0 − (z·s − cs)²), with s and cs given. -/
def basisS (z s cs : EReal) : EReal := Ideal.exp (0 - (z * s - cs) * (z * s - cs))

/-- Row f = 16·d + k of the output matrix. -/
def featRow (d : Fin 512) (k : Fin 16) : Fin 8193 := ⟨16 * d.val + k.val, by have := d.isLt; have := k.isLt; omega⟩

/-- The output matrix's last row, which multiplies the log-determinant. -/
def lastRow : Fin 8193 := ⟨8192, by omega⟩

/-! ## The two arrangements of the output entry -/

/-- Coordinates outermost, the quotient form of the basis function, the log-determinant's term, the bias. -/
def outQ (z : Fin 512 → EReal) (ld : EReal) (cen lam : Fin 512 → Fin 16 → EReal) (Wout : Fin 8193 → Fin 1024 → EReal)
    (bout : Fin 1024 → EReal) (o : Fin 1024) : EReal :=
  ((∑ d : Fin 512, ∑ k : Fin 16, basisQ (z d) (cen d k) (Ideal.exp (lam d k) + tinyW) * Wout (featRow d k) o)
    + ld * Wout lastRow o) + bout o

/-- Basis index outermost, sixteen blocks added one after the other from zero, the scaled form of the basis function with
    the scales s and the scaled centers cs given as tables indexed (k, d), the output matrix given re-laid as (k, d, o). -/
def outS (z : Fin 512 → EReal) (ld : EReal) (s cs : Fin 16 → Fin 512 → EReal) (wR : Fin 16 → Fin 512 → Fin 1024 → EReal)
    (wl bo : Fin 1024 → EReal) (o : Fin 1024) : EReal :=
  let blk : Fin 16 → EReal := fun k => ∑ d : Fin 512, basisS (z d) (s k d) (cs k d) * wR k d o
  ((0 + blk 0 + blk 1 + blk 2 + blk 3 + blk 4 + blk 5 + blk 6 + blk 7 + blk 8 + blk 9 + blk 10 + blk 11 + blk 12
      + blk 13 + blk 14 + blk 15) + ld * wl o) + bo o

end Cert.Rbf

end
-- ==== Proof.RbfLaws.lean ====
/-
  The two arrangements of the output entry are one extended real.

  Basis functions. Let c and λ be real and w = e^λ + tiny, a positive real, and s = √2 / w. For a real z,
  (z·s − c·s)² = s²·(z − c)² = 2·((z − c)/w)², since (√2)² = 2; so exp(0 − (z·s − c·s)²) = exp(−2·((z − c)/w)²).
  For z = +∞ both z·s − c·s and (z − c)/w are +∞ (s and 1/w are positive), their squares are +∞, and both exponentials
  are exp(−∞) = 0; for z = −∞ both are −∞, with the same squares.

  Sums. The sixteen blocks added one after the other from zero are the sum over the basis index, and a double sum of
  extended reals may be taken in either order.
-/
import proofs.«161492_j60722247631487_2_alg».proof.Proof.RbfSpec

noncomputable section

namespace Cert.Rbf

open Idealize.ShloMosaic

/-! ## The words -/

theorem twoW_eq : twoW = ((2 : ℝ) : EReal) := by
  unfold twoW; simp [Ideal.ofBits, Ideal.ieee, -EReal.coe_mul]; norm_num

theorem negTwoW_eq : negTwoW = ((-2 : ℝ) : EReal) := by
  unfold negTwoW; simp [Ideal.ofBits, Ideal.ieee, -EReal.coe_mul]; norm_num

/-- The widths' floor is a positive real. -/
theorem tinyW_pos : ∃ t : ℝ, 0 < t ∧ tinyW = (t : EReal) := by
  unfold tinyW
  refine ⟨_, ?_, by simp [Ideal.ofBits, Ideal.ieee, -EReal.coe_mul]; rfl⟩
  positivity

/-! ## The two forms of a basis function agree -/

/-- For real c and λ, at every extended real z: the scaled form with s = √2/(e^λ + tiny) and the scaled center c·s is
    the quotient form with the width e^λ + tiny. -/
theorem basisS_eq_basisQ (z : EReal) (c lam : ℝ) :
    basisS z (Ideal.div (Ideal.sqrt twoW) (Ideal.exp (lam : EReal) + tinyW))
        ((c : EReal) * Ideal.div (Ideal.sqrt twoW) (Ideal.exp (lam : EReal) + tinyW))
      = basisQ z (c : EReal) (Ideal.exp (lam : EReal) + tinyW) := by
  obtain ⟨t, ht, htw⟩ := tinyW_pos
  have hW : (0 : ℝ) < Real.exp lam + t := by positivity
  have hw : Ideal.exp (lam : EReal) + tinyW = ((Real.exp lam + t : ℝ) : EReal) := by
    rw [htw, Ideal.exp_coe, EReal.coe_add]
  have hs : Ideal.div (Ideal.sqrt twoW) ((Real.exp lam + t : ℝ) : EReal)
      = ((Real.sqrt 2 * (1 / (Real.exp lam + t)) : ℝ) : EReal) := by
    rw [Ideal.div_coe hW.ne', twoW_eq, Ideal.sqrt_coe, if_neg (by norm_num), EReal.coe_mul]
  have hS : (0 : ℝ) < Real.sqrt 2 * (1 / (Real.exp lam + t)) := by positivity
  have hI : (0 : ℝ) < 1 / (Real.exp lam + t) := by positivity
  have h2 : Real.sqrt 2 * Real.sqrt 2 = 2 := Real.mul_self_sqrt (by norm_num)
  rw [hw, hs]
  unfold basisS basisQ
  rw [Ideal.div_coe hW.ne', negTwoW_eq]
  induction z using EReal.rec with
  | bot =>
    rw [EReal.bot_mul_coe_of_pos hS, ← EReal.coe_mul, EReal.bot_sub, EReal.bot_sub, EReal.bot_mul_coe_of_pos hI,
      EReal.bot_mul_bot, zero_sub, EReal.neg_top, EReal.coe_mul_top_of_neg (by norm_num : (-2 : ℝ) < 0)]
  | coe x =>
    have e1 : (0 : EReal) - ((x : EReal) * ((Real.sqrt 2 * (1 / (Real.exp lam + t)) : ℝ) : EReal)
          - (c : EReal) * ((Real.sqrt 2 * (1 / (Real.exp lam + t)) : ℝ) : EReal))
        * ((x : EReal) * ((Real.sqrt 2 * (1 / (Real.exp lam + t)) : ℝ) : EReal)
          - (c : EReal) * ((Real.sqrt 2 * (1 / (Real.exp lam + t)) : ℝ) : EReal))
        = ((0 - (x * (Real.sqrt 2 * (1 / (Real.exp lam + t))) - c * (Real.sqrt 2 * (1 / (Real.exp lam + t))))
            * (x * (Real.sqrt 2 * (1 / (Real.exp lam + t))) - c * (Real.sqrt 2 * (1 / (Real.exp lam + t)))) : ℝ) : EReal) := by
      push_cast; rfl
    have e2 : ((-2 : ℝ) : EReal) * (((x : EReal) - (c : EReal)) * ((1 / (Real.exp lam + t) : ℝ) : EReal)
          * (((x : EReal) - (c : EReal)) * ((1 / (Real.exp lam + t) : ℝ) : EReal)))
        = ((-2 * ((x - c) * (1 / (Real.exp lam + t)) * ((x - c) * (1 / (Real.exp lam + t)))) : ℝ) : EReal) := by
      push_cast; rfl
    rw [e1, e2, Ideal.exp_coe, Ideal.exp_coe]
    congr 2
    linear_combination (-((x - c) * (1 / (Real.exp lam + t))) * ((x - c) * (1 / (Real.exp lam + t)))) * h2
  | top =>
    rw [EReal.top_mul_coe_of_pos hS, ← EReal.coe_mul, EReal.top_sub_coe, EReal.top_sub_coe, EReal.top_mul_coe_of_pos hI,
      EReal.top_mul_top, zero_sub, EReal.neg_top, EReal.coe_mul_top_of_neg (by norm_num : (-2 : ℝ) < 0)]

/-! ## Sixteen blocks added from zero are the sum over the basis index -/

theorem blocks_sum (blk : Fin 16 → EReal) :
    0 + blk 0 + blk 1 + blk 2 + blk 3 + blk 4 + blk 5 + blk 6 + blk 7 + blk 8 + blk 9 + blk 10 + blk 11 + blk 12
      + blk 13 + blk 14 + blk 15 = ∑ k : Fin 16, blk k := by
  rw [zero_add]
  simp only [Fin.sum_univ_succ, Fin.sum_univ_zero, add_zero]
  simp only [← add_assoc]
  rfl

/-! ## The two arrangements agree -/

/-- With the scale table s = √2/(e^λ + tiny), the scaled centers c·s, and the output matrix re-laid by (k, d) ↦ row
    16·d + k, the blockwise arrangement is the row-by-row one, for real centers and real log-widths. -/
theorem outS_eq_outQ (z : Fin 512 → EReal) (ld : EReal) (cen lam : Fin 512 → Fin 16 → EReal)
    (Wout : Fin 8193 → Fin 1024 → EReal) (bout : Fin 1024 → EReal)
    (hc : ∀ d k, ∃ r : ℝ, cen d k = (r : EReal)) (hl : ∀ d k, ∃ r : ℝ, lam d k = (r : EReal)) (o : Fin 1024) :
    outS z ld (fun k d => Ideal.div (Ideal.sqrt twoW) (Ideal.exp (lam d k) + tinyW))
        (fun k d => cen d k * Ideal.div (Ideal.sqrt twoW) (Ideal.exp (lam d k) + tinyW))
        (fun k d o' => Wout (featRow d k) o') (fun o' => Wout lastRow o') bout o
      = outQ z ld cen lam Wout bout o := by
  have hb := blocks_sum (fun k : Fin 16 => ∑ d : Fin 512,
    basisS (z d) (Ideal.div (Ideal.sqrt twoW) (Ideal.exp (lam d k) + tinyW))
      (cen d k * Ideal.div (Ideal.sqrt twoW) (Ideal.exp (lam d k) + tinyW)) * Wout (featRow d k) o)
  unfold outS outQ
  refine (congrArg (fun t => t + ld * Wout lastRow o + bout o) hb).trans ?_
  refine congrArg (fun t => t + ld * Wout lastRow o + bout o) ?_
  rw [Finset.sum_comm]
  refine Finset.sum_congr rfl fun d _ => Finset.sum_congr rfl fun k _ => ?_
  obtain ⟨cr, hcr⟩ := hc d k
  obtain ⟨lr, hlr⟩ := hl d k
  rw [hcr, hlr, basisS_eq_basisQ]

end Cert.Rbf

end
-- ==== Proof.LibKeepdims.lean ====
/-
  A vector kept as a column, and a column laid along every column of a matrix, read at an index.

  A row reduction that keeps its axis (a row's maximum or sum, then subtracted from or divided into every entry of the
  row) is printed as a shape cast of the reduced vector [a] to a column [a, 1] followed by a broadcast of that column to
  [a, b]. At (p, c) the broadcast reads the column at (p, 0), which reads the vector at p.
-/
import Idealize.ShloMosaic.Lib.Pipeline.Value
import Idealize.ShloMosaic.Lib.ValueIdx

namespace Idealize.ShloMosaic.Keepdims

open Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid along every column of a matrix reads, at `(p, c)`, the vector at `p`. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Idealize.ShloMosaic.Keepdims
-- ==== Proof.KernelBody.lean ====
/-
  The kernel's body at one entry of its output block.

  For the block of 1024 rows a grid point works on, entry (r, o) of what the body stores is the scaled-basis arrangement of
  the output entry (Rbf.outS) of row r of the input block: the perceptron, the warp and the log-determinant of that row,
  the sixteen rows of the scale table and of the scaled-center table, the sixteen slabs of the re-laid output matrix, the
  last row and the bias.

  The body is read in pieces. Each piece is a composition of pointwise operations, of a row of a table squeezed,
  re-expanded and laid along the 1024 rows, of a slab of the output matrix with its leading unit axis dropped, of a row
  sum, and of matrix products from a zero accumulator; at an index each of these is the operation on the entries, the row
  or slab entry, the sum over the row, and the sum over the inner coordinate of the products. Pieced together, the stored
  entry is zero plus the sixteen blocks ∑_d basis(z_d, s_{k,d}, cs_{k,d}) · W_{k,d,o} in order, plus log det times the last
  row's entry, plus the bias.
-/
import proofs.«161492_j60722247631487_2_alg».proof.Proof.Gen.KernelIdeal.Frame
import proofs.«161492_j60722247631487_2_alg».proof.Proof.RbfSpec
import proofs.«161492_j60722247631487_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx

/-! ## Reading the body's operations at an index

Every vector operation of the body is pointwise, a re-laying of a row or a slab, a row sum, or a matrix product; each
is read here at one index of its result. -/

section pointwise
variable {s : Shape} {φ : FTy}

theorem exp_at (v : FVec Ideal s φ) (i : s.Idx) : exp v i = Ideal.exp (v i) := rfl
theorem sqrt_at (v : FVec Ideal s φ) (i : s.Idx) : sqrt v i = Ideal.sqrt (v i) := rfl
theorem log_at (v : FVec Ideal s φ) (i : s.Idx) : log v i = Ideal.log (v i) := rfl
theorem log1p_at (v : FVec Ideal s φ) (i : s.Idx) : log1p v i = Ideal.log1p (v i) := rfl
theorem logistic_at (v : FVec Ideal s φ) (i : s.Idx) : logistic v i = Ideal.logistic (v i) := rfl
theorem absf_at (v : FVec Ideal s φ) (i : s.Idx) : absf v i = max (v i) (-(v i)) := rfl
theorem zeroSplat_at (i : s.Idx) :
    (broadcast s (Scalar.ofBits (F := Ideal) .f32 0x00000000#32) : FVec Ideal s .f32) i = 0 := Ideal.ofBits_zero_f32

end pointwise

/-- A value is never different from itself: the body's guard for an undefined argument never fires on extended reals. -/
theorem guard_dead (y : EReal) : FloatOps.cmpf (F := Ideal) (φ := .f32) .one y y = 0#1 := by
  rw [Ideal.cmpf_def]; simp [Ideal.cmp]

/-- The body's softplus, with its dead guard and its subtractions of zero, is max(y,0) + log(1 + e^{−|y|}). -/
theorem softplus_form (y : EReal) :
    Scalar.select (FloatOps.cmpf (F := Ideal) (φ := .f32) .one (y - 0) (y - 0)) (y + 0)
        (max y 0 + Ideal.log1p (Ideal.exp (0 - max (y - 0) (-(y - 0))))) = Rbf.softplus y := by
  rw [guard_dead, select_zero, sub_zero, zero_sub]
  rfl

/-- Entry (r, i) of a [1024,512] block times a [512,8] matrix, from a zero accumulator: the sum over the 512 inner coordinates. -/
theorem mm_rows_W1 {φ₁ φ₂ : FTy} (prec : Option ContractPrecision) (p : FVec Ideal S1024x512 φ₁) (q : FVec Ideal S512x8 φ₂)
    (r : Fin 1024) (c : Fin 8) :
    matmul dot_S1024x512_S512x8_S1024x8_1_0_0_1_n_n prec p q (constant S1024x8 .f32 0x00000000#32) (ix2 r c) = ∑ d : Fin 512, p (ix2 r d) * q (ix2 d c) := by
  refine (Ideal.matmul_constant_zero_apply dot_S1024x512_S512x8_S1024x8_1_0_0_1_n_n prec p q (ix2 r c)).trans ?_
  rw [← Equiv.sum_comp (contrEquiv1 dot_S1024x512_S512x8_S1024x8_1_0_0_1_n_n 512 rfl rfl).symm]
  refine Finset.sum_congr rfl fun k _ => ?_
  have hk := contrEquiv1_symm_val dot_S1024x512_S512x8_S1024x8_1_0_0_1_n_n 512 rfl rfl k
  have l0 : ∀ (i : S1024x8.Idx) (e : dot_S1024x512_S512x8_S1024x8_1_0_0_1_n_n.contr.Idx), (dot_S1024x512_S512x8_S1024x8_1_0_0_1_n_n.lhsIdx i e 0).val = (i 0).val := fun i e => by
    unfold DotDims.lhsIdx
    rw [dif_neg (show ¬(0 : Fin S1024x512.rank) ∈ dot_S1024x512_S512x8_S1024x8_1_0_0_1_n_n.lhsBatch by decide), dif_pos (show (0 : Fin S1024x512.rank) ∈ dot_S1024x512_S512x8_S1024x8_1_0_0_1_n_n.lhsNonContracting by decide)]
    rfl
  have r1 : ∀ (i : S1024x8.Idx) (e : dot_S1024x512_S512x8_S1024x8_1_0_0_1_n_n.contr.Idx), (dot_S1024x512_S512x8_S1024x8_1_0_0_1_n_n.rhsIdx i e 1).val = (i 1).val := fun i e => by
    unfold DotDims.rhsIdx
    rw [dif_neg (show ¬(1 : Fin S512x8.rank) ∈ dot_S1024x512_S512x8_S1024x8_1_0_0_1_n_n.rhsBatch by decide), dif_pos (show (1 : Fin S512x8.rank) ∈ dot_S1024x512_S512x8_S1024x8_1_0_0_1_n_n.rhsNonContracting by decide)]
    rfl
  have el : dot_S1024x512_S512x8_S1024x8_1_0_0_1_n_n.lhsIdx (ix2 r c) ((contrEquiv1 dot_S1024x512_S512x8_S1024x8_1_0_0_1_n_n 512 rfl rfl).symm k) = ix2 r k := funext fun a => Fin.ext (by
    match a with
    | ⟨0, _⟩ => exact l0 _ _
    | ⟨1, _⟩ => exact (dot_S1024x512_S512x8_S1024x8_1_0_0_1_n_n.lhsIdx_val_of_single rfl _ _).trans hk)
  have er : dot_S1024x512_S512x8_S1024x8_1_0_0_1_n_n.rhsIdx (ix2 r c) ((contrEquiv1 dot_S1024x512_S512x8_S1024x8_1_0_0_1_n_n 512 rfl rfl).symm k) = ix2 k c := funext fun a => Fin.ext (by
    match a with
    | ⟨0, _⟩ => exact (dot_S1024x512_S512x8_S1024x8_1_0_0_1_n_n.rhsIdx_val_of_single rfl _ _).trans hk
    | ⟨1, _⟩ => exact r1 _ _)
  rw [el, er]

/-- Entry (r, j) of a [1024,8] block times an [8,8] matrix, from a zero accumulator. -/
theorem mm_hid_W2 {φ₁ φ₂ : FTy} (prec : Option ContractPrecision) (p : FVec Ideal S1024x8 φ₁) (q : FVec Ideal S8x8 φ₂)
    (r : Fin 1024) (c : Fin 8) :
    matmul dot_S1024x8_S8x8_S1024x8_1_0_0_1_n_n prec p q (constant S1024x8 .f32 0x00000000#32) (ix2 r c) = ∑ d : Fin 8, p (ix2 r d) * q (ix2 d c) := by
  refine (Ideal.matmul_constant_zero_apply dot_S1024x8_S8x8_S1024x8_1_0_0_1_n_n prec p q (ix2 r c)).trans ?_
  rw [← Equiv.sum_comp (contrEquiv1 dot_S1024x8_S8x8_S1024x8_1_0_0_1_n_n 8 rfl rfl).symm]
  refine Finset.sum_congr rfl fun k _ => ?_
  have hk := contrEquiv1_symm_val dot_S1024x8_S8x8_S1024x8_1_0_0_1_n_n 8 rfl rfl k
  have l0 : ∀ (i : S1024x8.Idx) (e : dot_S1024x8_S8x8_S1024x8_1_0_0_1_n_n.contr.Idx), (dot_S1024x8_S8x8_S1024x8_1_0_0_1_n_n.lhsIdx i e 0).val = (i 0).val := fun i e => by
    unfold DotDims.lhsIdx
    rw [dif_neg (show ¬(0 : Fin S1024x8.rank) ∈ dot_S1024x8_S8x8_S1024x8_1_0_0_1_n_n.lhsBatch by decide), dif_pos (show (0 : Fin S1024x8.rank) ∈ dot_S1024x8_S8x8_S1024x8_1_0_0_1_n_n.lhsNonContracting by decide)]
    rfl
  have r1 : ∀ (i : S1024x8.Idx) (e : dot_S1024x8_S8x8_S1024x8_1_0_0_1_n_n.contr.Idx), (dot_S1024x8_S8x8_S1024x8_1_0_0_1_n_n.rhsIdx i e 1).val = (i 1).val := fun i e => by
    unfold DotDims.rhsIdx
    rw [dif_neg (show ¬(1 : Fin S8x8.rank) ∈ dot_S1024x8_S8x8_S1024x8_1_0_0_1_n_n.rhsBatch by decide), dif_pos (show (1 : Fin S8x8.rank) ∈ dot_S1024x8_S8x8_S1024x8_1_0_0_1_n_n.rhsNonContracting by decide)]
    rfl
  have el : dot_S1024x8_S8x8_S1024x8_1_0_0_1_n_n.lhsIdx (ix2 r c) ((contrEquiv1 dot_S1024x8_S8x8_S1024x8_1_0_0_1_n_n 8 rfl rfl).symm k) = ix2 r k := funext fun a => Fin.ext (by
    match a with
    | ⟨0, _⟩ => exact l0 _ _
    | ⟨1, _⟩ => exact (dot_S1024x8_S8x8_S1024x8_1_0_0_1_n_n.lhsIdx_val_of_single rfl _ _).trans hk)
  have er : dot_S1024x8_S8x8_S1024x8_1_0_0_1_n_n.rhsIdx (ix2 r c) ((contrEquiv1 dot_S1024x8_S8x8_S1024x8_1_0_0_1_n_n 8 rfl rfl).symm k) = ix2 k c := funext fun a => Fin.ext (by
    match a with
    | ⟨0, _⟩ => exact (dot_S1024x8_S8x8_S1024x8_1_0_0_1_n_n.rhsIdx_val_of_single rfl _ _).trans hk
    | ⟨1, _⟩ => exact r1 _ _)
  rw [el, er]

/-- Entry (r, d) of a [1024,8] block times an [8,512] matrix, from a zero accumulator. -/
theorem mm_hid_W3 {φ₁ φ₂ : FTy} (prec : Option ContractPrecision) (p : FVec Ideal S1024x8 φ₁) (q : FVec Ideal S8x512 φ₂)
    (r : Fin 1024) (c : Fin 512) :
    matmul dot_S1024x8_S8x512_S1024x512_1_0_0_1_n_n prec p q (constant S1024x512 .f32 0x00000000#32) (ix2 r c) = ∑ d : Fin 8, p (ix2 r d) * q (ix2 d c) := by
  refine (Ideal.matmul_constant_zero_apply dot_S1024x8_S8x512_S1024x512_1_0_0_1_n_n prec p q (ix2 r c)).trans ?_
  rw [← Equiv.sum_comp (contrEquiv1 dot_S1024x8_S8x512_S1024x512_1_0_0_1_n_n 8 rfl rfl).symm]
  refine Finset.sum_congr rfl fun k _ => ?_
  have hk := contrEquiv1_symm_val dot_S1024x8_S8x512_S1024x512_1_0_0_1_n_n 8 rfl rfl k
  have l0 : ∀ (i : S1024x512.Idx) (e : dot_S1024x8_S8x512_S1024x512_1_0_0_1_n_n.contr.Idx), (dot_S1024x8_S8x512_S1024x512_1_0_0_1_n_n.lhsIdx i e 0).val = (i 0).val := fun i e => by
    unfold DotDims.lhsIdx
    rw [dif_neg (show ¬(0 : Fin S1024x8.rank) ∈ dot_S1024x8_S8x512_S1024x512_1_0_0_1_n_n.lhsBatch by decide), dif_pos (show (0 : Fin S1024x8.rank) ∈ dot_S1024x8_S8x512_S1024x512_1_0_0_1_n_n.lhsNonContracting by decide)]
    rfl
  have r1 : ∀ (i : S1024x512.Idx) (e : dot_S1024x8_S8x512_S1024x512_1_0_0_1_n_n.contr.Idx), (dot_S1024x8_S8x512_S1024x512_1_0_0_1_n_n.rhsIdx i e 1).val = (i 1).val := fun i e => by
    unfold DotDims.rhsIdx
    rw [dif_neg (show ¬(1 : Fin S8x512.rank) ∈ dot_S1024x8_S8x512_S1024x512_1_0_0_1_n_n.rhsBatch by decide), dif_pos (show (1 : Fin S8x512.rank) ∈ dot_S1024x8_S8x512_S1024x512_1_0_0_1_n_n.rhsNonContracting by decide)]
    rfl
  have el : dot_S1024x8_S8x512_S1024x512_1_0_0_1_n_n.lhsIdx (ix2 r c) ((contrEquiv1 dot_S1024x8_S8x512_S1024x512_1_0_0_1_n_n 8 rfl rfl).symm k) = ix2 r k := funext fun a => Fin.ext (by
    match a with
    | ⟨0, _⟩ => exact l0 _ _
    | ⟨1, _⟩ => exact (dot_S1024x8_S8x512_S1024x512_1_0_0_1_n_n.lhsIdx_val_of_single rfl _ _).trans hk)
  have er : dot_S1024x8_S8x512_S1024x512_1_0_0_1_n_n.rhsIdx (ix2 r c) ((contrEquiv1 dot_S1024x8_S8x512_S1024x512_1_0_0_1_n_n 8 rfl rfl).symm k) = ix2 k c := funext fun a => Fin.ext (by
    match a with
    | ⟨0, _⟩ => exact (dot_S1024x8_S8x512_S1024x512_1_0_0_1_n_n.rhsIdx_val_of_single rfl _ _).trans hk
    | ⟨1, _⟩ => exact r1 _ _)
  rw [el, er]

/-- Entry (r, o) of a [1024,512] block of basis values times a [512,1024] slab of the output matrix, from a zero accumulator. -/
theorem mm_basis_slab {φ₁ φ₂ : FTy} (prec : Option ContractPrecision) (p : FVec Ideal S1024x512 φ₁) (q : FVec Ideal S512x1024 φ₂)
    (r : Fin 1024) (c : Fin 1024) :
    matmul dot_S1024x512_S512x1024_S1024x1024_1_0_0_1_n_n prec p q (constant S1024x1024 .f32 0x00000000#32) (ix2 r c) = ∑ d : Fin 512, p (ix2 r d) * q (ix2 d c) := by
  refine (Ideal.matmul_constant_zero_apply dot_S1024x512_S512x1024_S1024x1024_1_0_0_1_n_n prec p q (ix2 r c)).trans ?_
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have l0 : ∀ (i : S1024x1024.Idx) (e : dot_S1024x512_S512x1024_S1024x1024_1_0_0_1_n_n.contr.Idx), (dot_S1024x512_S512x1024_S1024x1024_1_0_0_1_n_n.lhsIdx i e 0).val = (i 0).val := fun i e => by
    unfold DotDims.lhsIdx
    rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
    rfl
  have r1 : ∀ (i : S1024x1024.Idx) (e : dot_S1024x512_S512x1024_S1024x1024_1_0_0_1_n_n.contr.Idx), (dot_S1024x512_S512x1024_S1024x1024_1_0_0_1_n_n.rhsIdx i e 1).val = (i 1).val := fun i e => by
    unfold DotDims.rhsIdx
    rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
    rfl
  have el : dot_S1024x512_S512x1024_S1024x1024_1_0_0_1_n_n.lhsIdx (ix2 r c) ((contrEquiv1 dot_S1024x512_S512x1024_S1024x1024_1_0_0_1_n_n 512 rfl rfl).symm k) = ix2 r k := funext fun a => Fin.ext (by
    match a with
    | ⟨0, _⟩ => exact l0 _ _
    | ⟨1, _⟩ => exact (dot_S1024x512_S512x1024_S1024x1024_1_0_0_1_n_n.lhsIdx_val_of_single rfl _ _).trans hk)
  have er : dot_S1024x512_S512x1024_S1024x1024_1_0_0_1_n_n.rhsIdx (ix2 r c) ((contrEquiv1 dot_S1024x512_S512x1024_S1024x1024_1_0_0_1_n_n 512 rfl rfl).symm k) = ix2 k c := funext fun a => Fin.ext (by
    match a with
    | ⟨0, _⟩ => exact (dot_S1024x512_S512x1024_S1024x1024_1_0_0_1_n_n.rhsIdx_val_of_single rfl _ _).trans hk
    | ⟨1, _⟩ => exact r1 _ _)
  rw [el, er]

/-- A bias row [1,n] laid along 1024 rows reads, at (r, i), the row at i. -/
theorem biasRow8_at (v : FVec Ideal S1x8 .f32) (r : Fin 1024) (i : Fin 8) :
    broadcastTo S1024x8 (shapeCast S1x8 v shapeCasts_S1x8_S1x8) broadcasts_S1x8_S1024x8 (ix2 r i) = v (ix2 (0 : Fin 1) i) := by
  rw [broadcastTo_1b_ab_apply, shapeCast_self]

theorem biasRow512_at (v : FVec Ideal S1x512 .f32) (r : Fin 1024) (d : Fin 512) :
    broadcastTo S1024x512 (shapeCast S1x512 v shapeCasts_S1x512_S1x512) broadcasts_S1x512_S1024x512 (ix2 r d) = v (ix2 (0 : Fin 1) d) := by
  rw [broadcastTo_1b_ab_apply, shapeCast_self]

theorem biasRow1024_at (v : FVec Ideal S1x1024 .f32) (r : Fin 1024) (o : Fin 1024) :
    broadcastTo S1024x1024 (shapeCast S1x1024 v shapeCasts_S1x1024_S1x1024) broadcasts_S1x1024_S1024x1024 (ix2 r o) = v (ix2 (0 : Fin 1) o) := by
  rw [broadcastTo_1b_ab_apply, shapeCast_self]

/-! ## The perceptron, the warp and the log-determinant of row r of the block -/

/-- The metric of row r at coordinate d. -/
theorem metric_at (v0 : Vec Ideal S1024x512 .f32) (v1 : Vec Ideal S512x8 .f32) (v3 : Vec Ideal S1x8 .f32) (v9 : Vec Ideal S8x8 .f32)
    (v11 : Vec Ideal S1x8 .f32) (v17 : Vec Ideal S8x512 .f32) (v19 : Vec Ideal S1x512 .f32) (r : Fin 1024) (d : Fin 512) :
    k0_pay1 (F := Ideal) v0 v1 v3 v9 v11 v17 v19 (ix2 r d)
      = Rbf.metric (fun d i => v1 (ix2 d i)) (fun i => v3 (ix2 0 i)) (fun i j => v9 (ix2 i j)) (fun j => v11 (ix2 0 j))
          (fun j d => v17 (ix2 j d)) (fun d => v19 (ix2 0 d)) (fun d => v0 (ix2 r d)) d := by
  unfold k0_pay1
  simp only [addf_apply, mulf_apply, subf_apply, maximumf_apply, select_apply, cmpf_apply, exp_at, log1p_at, logistic_at,
    absf_at, zeroSplat_at, broadcast_apply, mm_rows_W1, mm_hid_W2, mm_hid_W3, biasRow8_at, biasRow512_at,
    Ideal.ofBits_def, Ideal.ofBits_zero_f32, softplus_form]
  rfl

/-- The warped row: x · √g. -/
theorem warp_at (v0 : Vec Ideal S1024x512 .f32) (v38 : FVec Ideal S1024x512 .f32) (r : Fin 1024) (d : Fin 512) :
    k0_pay2 (F := Ideal) v0 v38 (ix2 r d) = v0 (ix2 r d) * Ideal.sqrt (v38 (ix2 r d)) := rfl

/-- The log-determinant column: at (r, 0) the sum over the row's coordinates of log g. -/
theorem logdet_at (v38 : FVec Ideal S1024x512 .f32) (r : Fin 1024) :
    k0_pay3 (F := Ideal) v38 (ix2 r (0 : Fin 1)) = ∑ d : Fin 512, Ideal.log (v38 (ix2 r d)) := by
  unfold k0_pay3
  rw [Keepdims.shapeCast_a_a1_apply]
  refine (Ideal.multiReduction_add_single (log v38) 0x00000000#32 reduces_S1024x512_S1024 (.inl rfl) rfl (ix1 r)).trans ?_
  refine Finset.sum_congr rfl fun k _ => ?_
  have e : reduces_S1024x512_S1024.lift (ix1 r) k = ix2 r k := funext fun a => Fin.ext (by
    match a with
    | ⟨0, _⟩ => rfl
    | ⟨1, _⟩ => rfl)
  rw [e]; rfl

/-! ## Rows of the two tables and slabs of the re-laid output matrix -/

theorem bcRow512 (w : FVec Ideal S1x512 .f32) (r : Fin 1024) (d : Fin 512) :
    broadcastTo S1024x512 w broadcasts_S1x512_S1024x512 (ix2 r d) = w (ix2 (0 : Fin 1) d) := broadcastTo_1b_ab_apply _ _ _ _

theorem up512 (u : FVec Ideal S512 .f32) (d : Fin 512) :
    shapeCast S1x512 u shapeCasts_S512_S1x512 (ix2 (0 : Fin 1) d) = u (ix1 d) := shapeCast_a_1a_apply _ _ _ _

theorem dn512 (v : FVec Ideal S1x512 .f32) (d : Fin 512) :
    shapeCast S512 v shapeCasts_S1x512_S512 (ix1 d) = v (ix2 (0 : Fin 1) d) := shapeCast_1a_a_apply _ _ _

theorem slab_at (w : FVec Ideal S1x512x1024 .bf16) (d : Fin 512) (o : Fin 1024) :
    shapeCast S512x1024 w shapeCasts_S1x512x1024_S512x1024 (ix2 d o) = w (ix3 (0 : Fin 1) d o) := shapeCast_1ab_ab_apply _ _ _ _

/-- The log-determinant column laid along 1024 columns reads, at (r, o), the column at (r, 0). -/
theorem logdetCol_at (v : FVec Ideal S1024x1 .f32) (r o : Fin 1024) :
    broadcastTo S1024x1024 v broadcasts_S1024x1_S1024x1024 (ix2 r o) = v (ix2 r (0 : Fin 1)) :=
  Keepdims.broadcastTo_a1_ab_apply _ _ _ _

/-! ## The accumulation, piece by piece -/

theorem acc0_at (v0 : Vec Ideal S1024x512 .f32) (v38 : FVec Ideal S1024x512 .f32) (v45 v48 : Vec Ideal S1x512 .f32) (v60 : Vec Ideal S1x512x1024 .bf16) (r o : Fin 1024) :
    k0_pay4 (F := Ideal) v0 v38 v45 v48 v60 (ix2 r o) = 0 + (∑ d : Fin 512, Rbf.basisS (k0_pay2 (F := Ideal) v0 v38 (ix2 r d)) (v45 (ix2 0 d)) (v48 (ix2 0 d)) * v60 (ix3 0 d o)) := by
  unfold k0_pay4
  simp only [addf_apply, mulf_apply, subf_apply, truncf_apply, exp_at, zeroSplat_at, broadcast_apply, mm_basis_slab, bcRow512, up512, dn512, slab_at,
    biasRow1024_at, Ideal.ofBits_def, Ideal.ofBits_zero_f32]
  rfl

theorem basis1_at (v0 : Vec Ideal S1024x512 .f32) (v38 : FVec Ideal S1024x512 .f32) (v64 v67 : Vec Ideal S1x512 .f32) (r : Fin 1024) (d : Fin 512) :
    k0_pay5 (F := Ideal) v0 v38 v64 v67 (ix2 r d) = Rbf.basisS (k0_pay2 (F := Ideal) v0 v38 (ix2 r d)) (v64 (ix2 0 d)) (v67 (ix2 0 d)) := by
  unfold k0_pay5
  simp only [addf_apply, mulf_apply, subf_apply, truncf_apply, exp_at, zeroSplat_at, broadcast_apply, mm_basis_slab, bcRow512, up512, dn512, slab_at,
    biasRow1024_at, Ideal.ofBits_def, Ideal.ofBits_zero_f32]
  rfl

theorem acc3_at (v40 : FVec Ideal S1024x512 .f32) (v63 : FVec Ideal S1024x1024 .f32) (v78 : FVec Ideal S1024x512 .bf16) (v79 : Vec Ideal S1x512x1024 .bf16) (v83 v86 : Vec Ideal S1x512 .f32) (v98 : Vec Ideal S1x512x1024 .bf16) (v102 v105 : Vec Ideal S1x512 .f32) (v117 : Vec Ideal S1x512x1024 .bf16)
    (r o : Fin 1024) :
    k0_pay6 (F := Ideal) v40 v63 v78 v79 v83 v86 v98 v102 v105 v117 (ix2 r o)
      = v63 (ix2 r o) + (∑ d : Fin 512, v78 (ix2 r d) * v79 (ix3 0 d o)) + (∑ d : Fin 512, Rbf.basisS (v40 (ix2 r d)) (v83 (ix2 0 d)) (v86 (ix2 0 d)) * v98 (ix3 0 d o)) + (∑ d : Fin 512, Rbf.basisS (v40 (ix2 r d)) (v102 (ix2 0 d)) (v105 (ix2 0 d)) * v117 (ix3 0 d o)) := by
  unfold k0_pay6
  simp only [addf_apply, mulf_apply, subf_apply, truncf_apply, exp_at, zeroSplat_at, broadcast_apply, mm_basis_slab, bcRow512, up512, dn512, slab_at,
    biasRow1024_at, Ideal.ofBits_def, Ideal.ofBits_zero_f32]
  rfl

theorem acc5_at (v40 : FVec Ideal S1024x512 .f32) (v120 : FVec Ideal S1024x1024 .f32) (v121 v124 : Vec Ideal S1x512 .f32) (v136 : Vec Ideal S1x512x1024 .bf16) (v140 v143 : Vec Ideal S1x512 .f32) (v155 : Vec Ideal S1x512x1024 .bf16) (r o : Fin 1024) :
    k0_pay7 (F := Ideal) v40 v120 v121 v124 v136 v140 v143 v155 (ix2 r o)
      = v120 (ix2 r o) + (∑ d : Fin 512, Rbf.basisS (v40 (ix2 r d)) (v121 (ix2 0 d)) (v124 (ix2 0 d)) * v136 (ix3 0 d o)) + (∑ d : Fin 512, Rbf.basisS (v40 (ix2 r d)) (v140 (ix2 0 d)) (v143 (ix2 0 d)) * v155 (ix3 0 d o)) := by
  unfold k0_pay7
  simp only [addf_apply, mulf_apply, subf_apply, truncf_apply, exp_at, zeroSplat_at, broadcast_apply, mm_basis_slab, bcRow512, up512, dn512, slab_at,
    biasRow1024_at, Ideal.ofBits_def, Ideal.ofBits_zero_f32]
  rfl

theorem row6_at (v159 : Vec Ideal S1x512 .f32) (d : Fin 512) : k0_pay8 (F := Ideal) v159 (ix1 d) = v159 (ix2 (0 : Fin 1) d) := by
  unfold k0_pay8; exact dn512 _ _

theorem acc7_at (v40 : FVec Ideal S1024x512 .f32) (v158 : FVec Ideal S1024x1024 .f32) (v160 : FVec Ideal S512 .f32) (v162 : Vec Ideal S1x512 .f32) (v174 : Vec Ideal S1x512x1024 .bf16) (v178 v181 : Vec Ideal S1x512 .f32) (v193 : Vec Ideal S1x512x1024 .bf16)
    (r o : Fin 1024) :
    k0_pay9 (F := Ideal) v40 v158 v160 v162 v174 v178 v181 v193 (ix2 r o)
      = v158 (ix2 r o) + (∑ d : Fin 512, Rbf.basisS (v40 (ix2 r d)) (v160 (ix1 d)) (v162 (ix2 0 d)) * v174 (ix3 0 d o))
          + (∑ d : Fin 512, Rbf.basisS (v40 (ix2 r d)) (v178 (ix2 0 d)) (v181 (ix2 0 d)) * v193 (ix3 0 d o)) := by
  unfold k0_pay9
  simp only [addf_apply, mulf_apply, subf_apply, truncf_apply, exp_at, zeroSplat_at, broadcast_apply, mm_basis_slab, bcRow512, up512, dn512, slab_at,
    biasRow1024_at, Ideal.ofBits_def, Ideal.ofBits_zero_f32]
  rfl

theorem row8_at (v197 : Vec Ideal S1x512 .f32) (d : Fin 512) : k0_pay10 (F := Ideal) v197 (ix2 (0 : Fin 1) d) = v197 (ix2 (0 : Fin 1) d) := by
  unfold k0_pay10; rw [up512, dn512]

theorem acc9_at (v40 : FVec Ideal S1024x512 .f32) (v196 : FVec Ideal S1024x1024 .f32) (v199 : FVec Ideal S1x512 .f32) (v200 : Vec Ideal S1x512 .f32) (v212 : Vec Ideal S1x512x1024 .bf16) (v216 v219 : Vec Ideal S1x512 .f32) (v231 : Vec Ideal S1x512x1024 .bf16)
    (r o : Fin 1024) :
    k0_pay11 (F := Ideal) v40 v196 v199 v200 v212 v216 v219 v231 (ix2 r o)
      = v196 (ix2 r o) + (∑ d : Fin 512, Rbf.basisS (v40 (ix2 r d)) (v199 (ix2 0 d)) (v200 (ix2 0 d)) * v212 (ix3 0 d o)) + (∑ d : Fin 512, Rbf.basisS (v40 (ix2 r d)) (v216 (ix2 0 d)) (v219 (ix2 0 d)) * v231 (ix3 0 d o)) := by
  unfold k0_pay11
  simp only [addf_apply, mulf_apply, subf_apply, truncf_apply, exp_at, zeroSplat_at, broadcast_apply, mm_basis_slab, bcRow512, up512, dn512, slab_at,
    biasRow1024_at, Ideal.ofBits_def, Ideal.ofBits_zero_f32]
  rfl

theorem row10_at (v238 : Vec Ideal S1x512 .f32) (d : Fin 512) : k0_pay12 (F := Ideal) v238 (ix2 (0 : Fin 1) d) = v238 (ix2 (0 : Fin 1) d) := by
  unfold k0_pay12; rw [up512, dn512]

theorem scaled10_at (v40 : FVec Ideal S1024x512 .f32) (v235 : Vec Ideal S1x512 .f32) (r : Fin 1024) (d : Fin 512) :
    k0_pay13 (F := Ideal) v40 v235 (ix2 r d) = v40 (ix2 r d) * v235 (ix2 (0 : Fin 1) d) := by
  unfold k0_pay13
  simp only [addf_apply, mulf_apply, subf_apply, truncf_apply, exp_at, zeroSplat_at, broadcast_apply, mm_basis_slab, bcRow512, up512, dn512, slab_at,
    biasRow1024_at, Ideal.ofBits_def, Ideal.ofBits_zero_f32]

theorem acc11_at (v40 : FVec Ideal S1024x512 .f32) (v234 : FVec Ideal S1024x1024 .f32) (v240 : FVec Ideal S1x512 .f32) (v242 : FVec Ideal S1024x512 .f32) (v250 : Vec Ideal S1x512x1024 .bf16) (v254 v257 : Vec Ideal S1x512 .f32) (v269 : Vec Ideal S1x512x1024 .bf16)
    (r o : Fin 1024) :
    k0_pay14 (F := Ideal) v40 v234 v240 v242 v250 v254 v257 v269 (ix2 r o)
      = v234 (ix2 r o)
          + (∑ d : Fin 512, Ideal.exp (0 - (v242 (ix2 r d) - v240 (ix2 0 d)) * (v242 (ix2 r d) - v240 (ix2 0 d))) * v250 (ix3 0 d o))
          + (∑ d : Fin 512, Rbf.basisS (v40 (ix2 r d)) (v254 (ix2 0 d)) (v257 (ix2 0 d)) * v269 (ix3 0 d o)) := by
  unfold k0_pay14
  simp only [addf_apply, mulf_apply, subf_apply, truncf_apply, exp_at, zeroSplat_at, broadcast_apply, mm_basis_slab, bcRow512, up512, dn512, slab_at,
    biasRow1024_at, Ideal.ofBits_def, Ideal.ofBits_zero_f32]
  rfl

theorem square12_at (v40 : FVec Ideal S1024x512 .f32) (v273 v276 : Vec Ideal S1x512 .f32) (r : Fin 1024) (d : Fin 512) :
    k0_pay15 (F := Ideal) v40 v273 v276 (ix2 r d)
      = (v40 (ix2 r d) * v273 (ix2 (0 : Fin 1) d) - v276 (ix2 (0 : Fin 1) d)) * (v40 (ix2 r d) * v273 (ix2 (0 : Fin 1) d) - v276 (ix2 (0 : Fin 1) d)) := by
  unfold k0_pay15
  simp only [addf_apply, mulf_apply, subf_apply, truncf_apply, exp_at, zeroSplat_at, broadcast_apply, mm_basis_slab, bcRow512, up512, dn512, slab_at,
    biasRow1024_at, Ideal.ofBits_def, Ideal.ofBits_zero_f32]

theorem acc13_at (v40 : FVec Ideal S1024x512 .f32) (v272 : FVec Ideal S1024x1024 .f32) (v283 : FVec Ideal S1024x512 .f32) (z0 : Ideal .f32) (v288 : Vec Ideal S1x512x1024 .bf16) (v292 v295 : Vec Ideal S1x512 .f32) (v307 : Vec Ideal S1x512x1024 .bf16) (r o : Fin 1024) :
    k0_pay16 (F := Ideal) v40 v272 v283 z0 v288 v292 v295 v307 (ix2 r o)
      = v272 (ix2 r o) + (∑ d : Fin 512, Ideal.exp (z0 - v283 (ix2 r d)) * v288 (ix3 0 d o)) + (∑ d : Fin 512, Rbf.basisS (v40 (ix2 r d)) (v292 (ix2 0 d)) (v295 (ix2 0 d)) * v307 (ix3 0 d o)) := by
  unfold k0_pay16
  simp only [addf_apply, mulf_apply, subf_apply, truncf_apply, exp_at, zeroSplat_at, broadcast_apply, mm_basis_slab, bcRow512, up512, dn512, slab_at,
    biasRow1024_at, Ideal.ofBits_def, Ideal.ofBits_zero_f32]
  rfl

theorem basis14_at (v40 : FVec Ideal S1024x512 .f32) (v311 v314 : Vec Ideal S1x512 .f32) (r : Fin 1024) (d : Fin 512) :
    k0_pay17 (F := Ideal) v40 v311 v314 (ix2 r d) = Rbf.basisS (v40 (ix2 r d)) (v311 (ix2 0 d)) (v314 (ix2 0 d)) := by
  unfold k0_pay17
  simp only [addf_apply, mulf_apply, subf_apply, truncf_apply, exp_at, zeroSplat_at, broadcast_apply, mm_basis_slab, bcRow512, up512, dn512, slab_at,
    biasRow1024_at, Ideal.ofBits_def, Ideal.ofBits_zero_f32]
  rfl

theorem acc15_at (v40 : FVec Ideal S1024x512 .f32) (v43 : FVec Ideal S1024x1 .f32) (v310 : FVec Ideal S1024x1024 .f32) (v325 : FVec Ideal S1024x512 .bf16) (v326 : Vec Ideal S1x512x1024 .bf16) (v330 v333 : Vec Ideal S1x512 .f32) (v345 : Vec Ideal S1x512x1024 .bf16)
    (v349 v355 : Vec Ideal S1x1024 .f32) (r o : Fin 1024) :
    k0_pay18 (F := Ideal) v40 v43 v310 v325 v326 v330 v333 v345 v349 v355 (ix2 r o)
      = v310 (ix2 r o) + (∑ d : Fin 512, v325 (ix2 r d) * v326 (ix3 0 d o)) + (∑ d : Fin 512, Rbf.basisS (v40 (ix2 r d)) (v330 (ix2 0 d)) (v333 (ix2 0 d)) * v345 (ix3 0 d o))
          + v43 (ix2 r (0 : Fin 1)) * v349 (ix2 (0 : Fin 1) o) + v355 (ix2 (0 : Fin 1) o) := by
  unfold k0_pay18
  simp only [addf_apply, mulf_apply, subf_apply, truncf_apply, exp_at, zeroSplat_at, broadcast_apply, mm_basis_slab, bcRow512, up512, dn512, slab_at,
    biasRow1024_at, Ideal.ofBits_def, Ideal.ofBits_zero_f32, logdetCol_at]
  rfl

/-! ## The loads -/

theorem zeros2 : (![0, 0] : Fin 2 → ℕ) = fun _ => 0 := by
  funext a; match a with | ⟨0, _⟩ => rfl | ⟨1, _⟩ => rfl

/-- Row k of a [16,512] table as a [1,512] row. -/
def rowOf (x : Vec Ideal S16x512 .f32) (k : Fin 16) : Vec Ideal S1x512 .f32 := fun y => x (ix2 k (y 1))

/-- Slab k of the re-laid [16,512,1024] output matrix as a [1,512,1024] slab. -/
def slabOf (x : Vec Ideal S16x512x1024 .bf16) (k : Fin 16) : Vec Ideal S1x512x1024 .bf16 := fun y => x (ix3 k (y 1) (y 2))

theorem rowOf_at (x : Vec Ideal S16x512 .f32) (k : Fin 16) (d : Fin 512) : rowOf x k (ix2 (0 : Fin 1) d) = x (ix2 k d) := rfl
theorem slabOf_at (x : Vec Ideal S16x512x1024 .bf16) (k : Fin 16) (d : Fin 512) (o : Fin 1024) :
    slabOf x k (ix3 (0 : Fin 1) d o) = x (ix3 k d o) := rfl

/-- The load of a [1,512] row at row offset k reads row k. -/
theorem ld_row (x : Vec Ideal S16x512 .f32) (k : ℕ) (inb : ∀ a, (![k, 0] : Fin 2 → ℕ) a + (![1, 512] : Fin 2 → ℕ) a ≤ S16x512.size a) :
    View.ld x (Rect.unit (s := S16x512) ![k, 0] ![1, 512] inb) = rowOf x (⟨k, inb 0⟩ : Fin 16) := by
  funext y
  show x ((Rect.unit (s := S16x512) ![k, 0] ![1, 512] inb).emb y) = x (ix2 (⟨k, inb 0⟩ : Fin 16) (y 1))
  refine congrArg x (funext fun a => Fin.ext ?_)
  match a with
  | ⟨0, _⟩ =>
    have h1 : (y 0).val < 1 := (y 0).isLt
    have h0 : (y 0).val = 0 := by omega
    show k + 1 * (y 0).val = k; omega
  | ⟨1, _⟩ => show 0 + 1 * (y 1).val = (y 1).val; omega

/-- The load of a [1,512,1024] slab at slab offset k reads slab k. -/
theorem ld_slab (x : Vec Ideal S16x512x1024 .bf16) (k : ℕ)
    (inb : ∀ a, (![k, 0, 0] : Fin 3 → ℕ) a + (![1, 512, 1024] : Fin 3 → ℕ) a ≤ S16x512x1024.size a) :
    View.ld x (Rect.unit (s := S16x512x1024) ![k, 0, 0] ![1, 512, 1024] inb) = slabOf x (⟨k, inb 0⟩ : Fin 16) := by
  funext y
  show x ((Rect.unit (s := S16x512x1024) ![k, 0, 0] ![1, 512, 1024] inb).emb y) = x (ix3 (⟨k, inb 0⟩ : Fin 16) (y 1) (y 2))
  refine congrArg x (funext fun a => Fin.ext ?_)
  match a with
  | ⟨0, _⟩ =>
    have h1 : (y 0).val < 1 := (y 0).isLt
    have h0 : (y 0).val = 0 := by omega
    show k + 1 * (y 0).val = k; omega
  | ⟨1, _⟩ => show 0 + 1 * (y 1).val = (y 1).val; omega
  | ⟨2, _⟩ => show 0 + 1 * (y 2).val = (y 2).val; omega

theorem ld_row0 (x : Vec Ideal S16x512 .f32) : View.ld x r0_6 = rowOf x 0 := ld_row x 0 _
theorem ld_row1 (x : Vec Ideal S16x512 .f32) : View.ld x r0_8 = rowOf x 1 := ld_row x 1 _
theorem ld_row2 (x : Vec Ideal S16x512 .f32) : View.ld x r0_10 = rowOf x 2 := ld_row x 2 _
theorem ld_row3 (x : Vec Ideal S16x512 .f32) : View.ld x r0_12 = rowOf x 3 := ld_row x 3 _
theorem ld_row4 (x : Vec Ideal S16x512 .f32) : View.ld x r0_14 = rowOf x 4 := ld_row x 4 _
theorem ld_row5 (x : Vec Ideal S16x512 .f32) : View.ld x r0_16 = rowOf x 5 := ld_row x 5 _
theorem ld_row6 (x : Vec Ideal S16x512 .f32) : View.ld x r0_18 = rowOf x 6 := ld_row x 6 _
theorem ld_row7 (x : Vec Ideal S16x512 .f32) : View.ld x r0_20 = rowOf x 7 := ld_row x 7 _
theorem ld_row8 (x : Vec Ideal S16x512 .f32) : View.ld x r0_22 = rowOf x 8 := ld_row x 8 _
theorem ld_row9 (x : Vec Ideal S16x512 .f32) : View.ld x r0_24 = rowOf x 9 := ld_row x 9 _
theorem ld_row10 (x : Vec Ideal S16x512 .f32) : View.ld x r0_26 = rowOf x 10 := ld_row x 10 _
theorem ld_row11 (x : Vec Ideal S16x512 .f32) : View.ld x r0_28 = rowOf x 11 := ld_row x 11 _
theorem ld_row12 (x : Vec Ideal S16x512 .f32) : View.ld x r0_30 = rowOf x 12 := ld_row x 12 _
theorem ld_row13 (x : Vec Ideal S16x512 .f32) : View.ld x r0_32 = rowOf x 13 := ld_row x 13 _
theorem ld_row14 (x : Vec Ideal S16x512 .f32) : View.ld x r0_34 = rowOf x 14 := ld_row x 14 _
theorem ld_row15 (x : Vec Ideal S16x512 .f32) : View.ld x r0_36 = rowOf x 15 := ld_row x 15 _
theorem ld_slab0 (x : Vec Ideal S16x512x1024 .bf16) : View.ld x r0_7 = slabOf x 0 := ld_slab x 0 _
theorem ld_slab1 (x : Vec Ideal S16x512x1024 .bf16) : View.ld x r0_9 = slabOf x 1 := ld_slab x 1 _
theorem ld_slab2 (x : Vec Ideal S16x512x1024 .bf16) : View.ld x r0_11 = slabOf x 2 := ld_slab x 2 _
theorem ld_slab3 (x : Vec Ideal S16x512x1024 .bf16) : View.ld x r0_13 = slabOf x 3 := ld_slab x 3 _
theorem ld_slab4 (x : Vec Ideal S16x512x1024 .bf16) : View.ld x r0_15 = slabOf x 4 := ld_slab x 4 _
theorem ld_slab5 (x : Vec Ideal S16x512x1024 .bf16) : View.ld x r0_17 = slabOf x 5 := ld_slab x 5 _
theorem ld_slab6 (x : Vec Ideal S16x512x1024 .bf16) : View.ld x r0_19 = slabOf x 6 := ld_slab x 6 _
theorem ld_slab7 (x : Vec Ideal S16x512x1024 .bf16) : View.ld x r0_21 = slabOf x 7 := ld_slab x 7 _
theorem ld_slab8 (x : Vec Ideal S16x512x1024 .bf16) : View.ld x r0_23 = slabOf x 8 := ld_slab x 8 _
theorem ld_slab9 (x : Vec Ideal S16x512x1024 .bf16) : View.ld x r0_25 = slabOf x 9 := ld_slab x 9 _
theorem ld_slab10 (x : Vec Ideal S16x512x1024 .bf16) : View.ld x r0_27 = slabOf x 10 := ld_slab x 10 _
theorem ld_slab11 (x : Vec Ideal S16x512x1024 .bf16) : View.ld x r0_29 = slabOf x 11 := ld_slab x 11 _
theorem ld_slab12 (x : Vec Ideal S16x512x1024 .bf16) : View.ld x r0_31 = slabOf x 12 := ld_slab x 12 _
theorem ld_slab13 (x : Vec Ideal S16x512x1024 .bf16) : View.ld x r0_33 = slabOf x 13 := ld_slab x 13 _
theorem ld_slab14 (x : Vec Ideal S16x512x1024 .bf16) : View.ld x r0_35 = slabOf x 14 := ld_slab x 14 _
theorem ld_slab15 (x : Vec Ideal S16x512x1024 .bf16) : View.ld x r0_37 = slabOf x 15 := ld_slab x 15 _

theorem ld_x (x : Vec Ideal S1024x512 .f32) : View.ld x r0_0 = x := View.ld_unit_zero (S := S1024x512) zeros2 _ x
theorem ld_W1 (x : Vec Ideal S512x8 .f32) : View.ld x r0_1 = x := View.ld_unit_zero (S := S512x8) zeros2 _ x
theorem ld_b8 (x : Vec Ideal S1x8 .f32) : View.ld x r0_2 = x := View.ld_unit_zero (S := S1x8) zeros2 _ x
theorem ld_W2 (x : Vec Ideal S8x8 .f32) : View.ld x r0_3 = x := View.ld_unit_zero (S := S8x8) zeros2 _ x
theorem ld_W3 (x : Vec Ideal S8x512 .f32) : View.ld x r0_4 = x := View.ld_unit_zero (S := S8x512) zeros2 _ x
theorem ld_b512 (x : Vec Ideal S1x512 .f32) : View.ld x r0_5 = x := View.ld_unit_zero (S := S1x512) zeros2 _ x
theorem ld_b1024 (x : Vec Ideal S1x1024 .f32) : View.ld x r0_38 = x := View.ld_unit_zero (S := S1x1024) zeros2 _ x

theorem zeroScalar : Scalar.ofBits (F := Ideal) .f32 0x00000000#32 = (0 : EReal) := Ideal.ofBits_zero_f32

/-! ## The stored block -/

/-- Entry (r, o) of the block the body stores, as a function of the twelve input blocks. -/
theorem out_at (x0 : Vec Ideal S1024x512 .f32) (x1 : Vec Ideal S512x8 .f32) (x2 : Vec Ideal S1x8 .f32)
    (x3 : Vec Ideal S8x8 .f32) (x4 : Vec Ideal S1x8 .f32) (x5 : Vec Ideal S8x512 .f32) (x6 : Vec Ideal S1x512 .f32)
    (x7 x8 : Vec Ideal S16x512 .f32) (x9 : Vec Ideal S16x512x1024 .bf16) (x10 x11 : Vec Ideal S1x1024 .f32)
    (r : Fin 1024) (o : Fin 1024) :
    out0_12 (F := Ideal) x0 x1 x2 x3 x4 x5 x6 x7 x8 x9 x10 x11 (ix2 r o)
      = Rbf.outS
          (Rbf.warped (fun d i => x1 (ix2 d i)) (fun i => x2 (ix2 0 i)) (fun i j => x3 (ix2 i j)) (fun j => x4 (ix2 0 j))
            (fun j d => x5 (ix2 j d)) (fun d => x6 (ix2 0 d)) (fun d => x0 (ix2 r d)))
          (Rbf.logdet (fun d i => x1 (ix2 d i)) (fun i => x2 (ix2 0 i)) (fun i j => x3 (ix2 i j)) (fun j => x4 (ix2 0 j))
            (fun j d => x5 (ix2 j d)) (fun d => x6 (ix2 0 d)) (fun d => x0 (ix2 r d)))
          (fun k d => x7 (ix2 k d)) (fun k d => x8 (ix2 k d)) (fun k d o' => x9 (ix3 k d o'))
          (fun o' => x10 (ix2 0 o')) (fun o' => x11 (ix2 0 o')) o := by
  unfold out0_12
  rw [View.canon_unit_zero (S := S1024x1024) zeros2]
  simp only [ld_x, ld_W1, ld_b8, ld_W2, ld_W3, ld_b512, ld_b1024, ld_row0, ld_slab0, ld_row1, ld_slab1, ld_row2, ld_slab2, ld_row3, ld_slab3, ld_row4, ld_slab4, ld_row5, ld_slab5, ld_row6, ld_slab6, ld_row7, ld_slab7, ld_row8, ld_slab8, ld_row9, ld_slab9, ld_row10, ld_slab10, ld_row11, ld_slab11, ld_row12, ld_slab12, ld_row13, ld_slab13, ld_row14, ld_slab14, ld_row15, ld_slab15]
  simp only [acc15_at, basis14_at, acc13_at, square12_at, acc11_at, scaled10_at, row10_at, acc9_at, row8_at, acc7_at, row6_at, acc5_at, acc3_at, basis1_at, acc0_at, logdet_at, warp_at, metric_at, rowOf_at, slabOf_at, zeroScalar]
  rfl

end Cert.KernelIdeal.Body
end
-- ==== Proof.KernelArray.lean ====
/-
  From the kernel's blocks to its whole output array, and the tables the host prepares for it.

  The grid has eight points; point t works on rows 1024·t … 1024·t + 1023 of the input and writes the same rows of the
  output, and every other operand is staged whole at every point. So entry (b, o) of the output array is the body's entry
  (b mod 1024, o) at point b / 1024, which is the scaled-basis arrangement (Rbf.outS) of row b of the input — the same
  function of the global row at every point, hence one function of the whole array. The tables the body reads are written by
  the host before the launch: the biases and the output bias as one-row matrices, the scale table s = √2 / (e^λ + tiny) and
  the scaled centers c · s transposed to (k, d), the first 8192 rows of the output matrix re-laid as (k, d, o) with row
  16·d + k at (k, d), and the last row on its own.
-/
import proofs.«161492_j60722247631487_2_alg».proof.Proof.Gen.KernelIdeal.Value
import proofs.«161492_j60722247631487_2_alg».proof.Proof.KernelBody
import proofs.«161492_j60722247631487_2_alg».proof.Proof.RbfSpec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.Array

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## One output entry as a function of one input row and the eleven tables -/

/-- The scaled-basis arrangement of an output entry, from one row of the input and the eleven staged tables as the body
    indexes them. -/
def entry (xr : Fin 512 → EReal) (a1 : Vec Ideal S512x8 .f32) (a2 : Vec Ideal S1x8 .f32) (a3 : Vec Ideal S8x8 .f32)
    (a4 : Vec Ideal S1x8 .f32) (a5 : Vec Ideal S8x512 .f32) (a6 : Vec Ideal S1x512 .f32) (a7 a8 : Vec Ideal S16x512 .f32)
    (a9 : Vec Ideal S16x512x1024 .bf16) (a10 a11 : Vec Ideal S1x1024 .f32) (o : Fin 1024) : EReal :=
  Rbf.outS
    (Rbf.warped (fun d i => a1 (ix2 d i)) (fun i => a2 (ix2 0 i)) (fun i j => a3 (ix2 i j)) (fun j => a4 (ix2 0 j))
      (fun j d => a5 (ix2 j d)) (fun d => a6 (ix2 0 d)) xr)
    (Rbf.logdet (fun d i => a1 (ix2 d i)) (fun i => a2 (ix2 0 i)) (fun i j => a3 (ix2 i j)) (fun j => a4 (ix2 0 j))
      (fun j d => a5 (ix2 j d)) (fun d => a6 (ix2 0 d)) xr)
    (fun k d => a7 (ix2 k d)) (fun k d => a8 (ix2 k d)) (fun k d o' => a9 (ix3 k d o'))
    (fun o' => a10 (ix2 0 o')) (fun o' => a11 (ix2 0 o')) o

/-- The body's stored block at any index is the entry of that row of the input block. -/
theorem body_entry (x0 : Vec Ideal S1024x512 .f32) (x1 : Vec Ideal S512x8 .f32) (x2 : Vec Ideal S1x8 .f32)
    (x3 : Vec Ideal S8x8 .f32) (x4 : Vec Ideal S1x8 .f32) (x5 : Vec Ideal S8x512 .f32) (x6 : Vec Ideal S1x512 .f32)
    (x7 x8 : Vec Ideal S16x512 .f32) (x9 : Vec Ideal S16x512x1024 .bf16) (x10 x11 : Vec Ideal S1x1024 .f32)
    (y : S1024x1024.Idx) :
    out0_12 (F := Ideal) x0 x1 x2 x3 x4 x5 x6 x7 x8 x9 x10 x11 y
      = entry (fun d => x0 (ix2 (y 0) d)) x1 x2 x3 x4 x5 x6 x7 x8 x9 x10 x11 (y 1) :=
  (congrArg (out0_12 (F := Ideal) x0 x1 x2 x3 x4 x5 x6 x7 x8 x9 x10 x11) (eq_ix2 y)).trans
    (Body.out_at x0 x1 x2 x3 x4 x5 x6 x7 x8 x9 x10 x11 (y 0) (y 1))

/-! ## The whole output array -/

/-- The output array as one function of its index: the entry of global row `i 0` of the input, over the tables as the
    region finds them. -/
def outArray (c : Dev nD) : S8192x1024.Idx → EReal := fun i =>
  entry (fun d => (V m c main_arg0 : S8192x512.Idx → EReal) (ix2 (i 0) d))
    (V m c main_arg1) (V m c main_v15) (V m c main_arg3) (V m c main_v16) (V m c main_arg5) (V m c main_v17)
    (V m c main_v8) (V m c main_v9) (V m c main_v14) (V m c main_v11) (V m c main_v18) (i 1)

/-! ## The index maps, decided over the eight points -/

/-- The input rows and the output rows move together, one block of 1024 rows per point, and every other operand's block
    index is zero at every point. -/
theorem idx_facts : ∀ t : Fin cfg0.N,
    win0_12.index t (0 : Fin 2) = t.val ∧ win0_12.index t (1 : Fin 2) = 0
    ∧ win0_0.index t (0 : Fin 2) = t.val ∧ win0_0.index t (1 : Fin 2) = 0
    ∧ win0_1.index t = (fun _ => 0) ∧ win0_2.index t = (fun _ => 0) ∧ win0_3.index t = (fun _ => 0)
    ∧ win0_4.index t = (fun _ => 0) ∧ win0_5.index t = (fun _ => 0) ∧ win0_6.index t = (fun _ => 0)
    ∧ win0_7.index t = (fun _ => 0) ∧ win0_8.index t = (fun _ => 0) ∧ win0_9.index t = (fun _ => 0)
    ∧ win0_10.index t = (fun _ => 0) ∧ win0_11.index t = (fun _ => 0) :=
  (by decide +kernel : ∀ t : Fin grid0.N, _)

/-! ## Each input block as the array it is cut from -/

/-- The block of the first layer's weights at any point is the whole array. -/
theorem iblk1 (c : Dev nD) (t : Fin cfg0.N) : (iblk m c 1 t : Vec Ideal S512x8 .f32) = V m c main_arg1 := by
  funext x
  obtain ⟨eo0, eo1, ex0, ex1, e1, e2, e3, e4, e5, e6, e7, e8, e9, e10, e11⟩ := idx_facts t
  unfold iblk
  rw [View.read_apply]
  show (V m c main_arg1 : S512x8.Idx → EReal) _ = _
  congr 1
  funext a
  apply Fin.ext
  match a with
  | ⟨0, _⟩ => show win0_1.index t 0 * 512 + 1 * (x 0).val = (x 0).val; rw [congrFun e1 0]; omega
  | ⟨1, _⟩ => show win0_1.index t 1 * 8 + 1 * (x 1).val = (x 1).val; rw [congrFun e1 1]; omega

/-- The block of the first layer's bias, as a one-row matrix at any point is the whole array. -/
theorem iblk2 (c : Dev nD) (t : Fin cfg0.N) : (iblk m c 2 t : Vec Ideal S1x8 .f32) = V m c main_v15 := by
  funext x
  obtain ⟨eo0, eo1, ex0, ex1, e1, e2, e3, e4, e5, e6, e7, e8, e9, e10, e11⟩ := idx_facts t
  unfold iblk
  rw [View.read_apply]
  show (V m c main_v15 : S1x8.Idx → EReal) _ = _
  congr 1
  funext a
  apply Fin.ext
  match a with
  | ⟨0, _⟩ => show win0_2.index t 0 * 1 + 1 * (x 0).val = (x 0).val; rw [congrFun e2 0]; omega
  | ⟨1, _⟩ => show win0_2.index t 1 * 8 + 1 * (x 1).val = (x 1).val; rw [congrFun e2 1]; omega

/-- The block of the second layer's weights at any point is the whole array. -/
theorem iblk3 (c : Dev nD) (t : Fin cfg0.N) : (iblk m c 3 t : Vec Ideal S8x8 .f32) = V m c main_arg3 := by
  funext x
  obtain ⟨eo0, eo1, ex0, ex1, e1, e2, e3, e4, e5, e6, e7, e8, e9, e10, e11⟩ := idx_facts t
  unfold iblk
  rw [View.read_apply]
  show (V m c main_arg3 : S8x8.Idx → EReal) _ = _
  congr 1
  funext a
  apply Fin.ext
  match a with
  | ⟨0, _⟩ => show win0_3.index t 0 * 8 + 1 * (x 0).val = (x 0).val; rw [congrFun e3 0]; omega
  | ⟨1, _⟩ => show win0_3.index t 1 * 8 + 1 * (x 1).val = (x 1).val; rw [congrFun e3 1]; omega

/-- The block of the second layer's bias, as a one-row matrix at any point is the whole array. -/
theorem iblk4 (c : Dev nD) (t : Fin cfg0.N) : (iblk m c 4 t : Vec Ideal S1x8 .f32) = V m c main_v16 := by
  funext x
  obtain ⟨eo0, eo1, ex0, ex1, e1, e2, e3, e4, e5, e6, e7, e8, e9, e10, e11⟩ := idx_facts t
  unfold iblk
  rw [View.read_apply]
  show (V m c main_v16 : S1x8.Idx → EReal) _ = _
  congr 1
  funext a
  apply Fin.ext
  match a with
  | ⟨0, _⟩ => show win0_4.index t 0 * 1 + 1 * (x 0).val = (x 0).val; rw [congrFun e4 0]; omega
  | ⟨1, _⟩ => show win0_4.index t 1 * 8 + 1 * (x 1).val = (x 1).val; rw [congrFun e4 1]; omega

/-- The block of the third layer's weights at any point is the whole array. -/
theorem iblk5 (c : Dev nD) (t : Fin cfg0.N) : (iblk m c 5 t : Vec Ideal S8x512 .f32) = V m c main_arg5 := by
  funext x
  obtain ⟨eo0, eo1, ex0, ex1, e1, e2, e3, e4, e5, e6, e7, e8, e9, e10, e11⟩ := idx_facts t
  unfold iblk
  rw [View.read_apply]
  show (V m c main_arg5 : S8x512.Idx → EReal) _ = _
  congr 1
  funext a
  apply Fin.ext
  match a with
  | ⟨0, _⟩ => show win0_5.index t 0 * 8 + 1 * (x 0).val = (x 0).val; rw [congrFun e5 0]; omega
  | ⟨1, _⟩ => show win0_5.index t 1 * 512 + 1 * (x 1).val = (x 1).val; rw [congrFun e5 1]; omega

/-- The block of the third layer's bias, as a one-row matrix at any point is the whole array. -/
theorem iblk6 (c : Dev nD) (t : Fin cfg0.N) : (iblk m c 6 t : Vec Ideal S1x512 .f32) = V m c main_v17 := by
  funext x
  obtain ⟨eo0, eo1, ex0, ex1, e1, e2, e3, e4, e5, e6, e7, e8, e9, e10, e11⟩ := idx_facts t
  unfold iblk
  rw [View.read_apply]
  show (V m c main_v17 : S1x512.Idx → EReal) _ = _
  congr 1
  funext a
  apply Fin.ext
  match a with
  | ⟨0, _⟩ => show win0_6.index t 0 * 1 + 1 * (x 0).val = (x 0).val; rw [congrFun e6 0]; omega
  | ⟨1, _⟩ => show win0_6.index t 1 * 512 + 1 * (x 1).val = (x 1).val; rw [congrFun e6 1]; omega

/-- The block of the scale table at any point is the whole array. -/
theorem iblk7 (c : Dev nD) (t : Fin cfg0.N) : (iblk m c 7 t : Vec Ideal S16x512 .f32) = V m c main_v8 := by
  funext x
  obtain ⟨eo0, eo1, ex0, ex1, e1, e2, e3, e4, e5, e6, e7, e8, e9, e10, e11⟩ := idx_facts t
  unfold iblk
  rw [View.read_apply]
  show (V m c main_v8 : S16x512.Idx → EReal) _ = _
  congr 1
  funext a
  apply Fin.ext
  match a with
  | ⟨0, _⟩ => show win0_7.index t 0 * 16 + 1 * (x 0).val = (x 0).val; rw [congrFun e7 0]; omega
  | ⟨1, _⟩ => show win0_7.index t 1 * 512 + 1 * (x 1).val = (x 1).val; rw [congrFun e7 1]; omega

/-- The block of the scaled-center table at any point is the whole array. -/
theorem iblk8 (c : Dev nD) (t : Fin cfg0.N) : (iblk m c 8 t : Vec Ideal S16x512 .f32) = V m c main_v9 := by
  funext x
  obtain ⟨eo0, eo1, ex0, ex1, e1, e2, e3, e4, e5, e6, e7, e8, e9, e10, e11⟩ := idx_facts t
  unfold iblk
  rw [View.read_apply]
  show (V m c main_v9 : S16x512.Idx → EReal) _ = _
  congr 1
  funext a
  apply Fin.ext
  match a with
  | ⟨0, _⟩ => show win0_8.index t 0 * 16 + 1 * (x 0).val = (x 0).val; rw [congrFun e8 0]; omega
  | ⟨1, _⟩ => show win0_8.index t 1 * 512 + 1 * (x 1).val = (x 1).val; rw [congrFun e8 1]; omega

/-- The block of the re-laid output matrix at any point is the whole array. -/
theorem iblk9 (c : Dev nD) (t : Fin cfg0.N) : (iblk m c 9 t : Vec Ideal S16x512x1024 .bf16) = V m c main_v14 := by
  funext x
  obtain ⟨eo0, eo1, ex0, ex1, e1, e2, e3, e4, e5, e6, e7, e8, e9, e10, e11⟩ := idx_facts t
  unfold iblk
  rw [View.read_apply]
  show (V m c main_v14 : S16x512x1024.Idx → EReal) _ = _
  congr 1
  funext a
  apply Fin.ext
  match a with
  | ⟨0, _⟩ => show win0_9.index t 0 * 16 + 1 * (x 0).val = (x 0).val; rw [congrFun e9 0]; omega
  | ⟨1, _⟩ => show win0_9.index t 1 * 512 + 1 * (x 1).val = (x 1).val; rw [congrFun e9 1]; omega
  | ⟨2, _⟩ => show win0_9.index t 2 * 1024 + 1 * (x 2).val = (x 2).val; rw [congrFun e9 2]; omega

/-- The block of the output matrix's last row at any point is the whole array. -/
theorem iblk10 (c : Dev nD) (t : Fin cfg0.N) : (iblk m c 10 t : Vec Ideal S1x1024 .f32) = V m c main_v11 := by
  funext x
  obtain ⟨eo0, eo1, ex0, ex1, e1, e2, e3, e4, e5, e6, e7, e8, e9, e10, e11⟩ := idx_facts t
  unfold iblk
  rw [View.read_apply]
  show (V m c main_v11 : S1x1024.Idx → EReal) _ = _
  congr 1
  funext a
  apply Fin.ext
  match a with
  | ⟨0, _⟩ => show win0_10.index t 0 * 1 + 1 * (x 0).val = (x 0).val; rw [congrFun e10 0]; omega
  | ⟨1, _⟩ => show win0_10.index t 1 * 1024 + 1 * (x 1).val = (x 1).val; rw [congrFun e10 1]; omega

/-- The block of the output bias, as a one-row matrix at any point is the whole array. -/
theorem iblk11 (c : Dev nD) (t : Fin cfg0.N) : (iblk m c 11 t : Vec Ideal S1x1024 .f32) = V m c main_v18 := by
  funext x
  obtain ⟨eo0, eo1, ex0, ex1, e1, e2, e3, e4, e5, e6, e7, e8, e9, e10, e11⟩ := idx_facts t
  unfold iblk
  rw [View.read_apply]
  show (V m c main_v18 : S1x1024.Idx → EReal) _ = _
  congr 1
  funext a
  apply Fin.ext
  match a with
  | ⟨0, _⟩ => show win0_11.index t 0 * 1 + 1 * (x 0).val = (x 0).val; rw [congrFun e11 0]; omega
  | ⟨1, _⟩ => show win0_11.index t 1 * 1024 + 1 * (x 1).val = (x 1).val; rw [congrFun e11 1]; omega

/-- The block of the input at point `t` is rows `1024 t … 1024 t + 1023` of the input. -/
theorem iblk0 (c : Dev nD) (t : Fin cfg0.N) (x : S1024x512.Idx) (k : S8192x512.Idx)
    (hk0 : (k 0).val = 1024 * t.val + (x 0).val) (hk1 : (k 1).val = (x 1).val) :
    (iblk m c 0 t : Vec Ideal S1024x512 .f32) x = (V m c main_arg0 : S8192x512.Idx → EReal) k := by
  obtain ⟨eo0, eo1, ex0, ex1, e1, e2, e3, e4, e5, e6, e7, e8, e9, e10, e11⟩ := idx_facts t
  unfold iblk
  rw [View.read_apply]
  show (V m c main_arg0 : S8192x512.Idx → EReal) _ = _
  congr 1
  funext a
  apply Fin.ext
  match a with
  | ⟨0, _⟩ => show win0_0.index t 0 * 1024 + 1 * (x 0).val = (k 0).val; rw [ex0, hk0]; omega
  | ⟨1, _⟩ => show win0_0.index t 1 * 512 + 1 * (x 1).val = (k 1).val; rw [ex1, hk1]; omega

/-! ## What a point writes back is its block of the whole-array function -/

/-- Entries agree when the row and every table agree. -/
theorem entry_congr {xr xr' : Fin 512 → EReal} (hx : xr = xr') {a1 a1' : Vec Ideal S512x8 .f32} (h1 : a1 = a1')
    {a2 a2' : Vec Ideal S1x8 .f32} (h2 : a2 = a2') {a3 a3' : Vec Ideal S8x8 .f32} (h3 : a3 = a3')
    {a4 a4' : Vec Ideal S1x8 .f32} (h4 : a4 = a4') {a5 a5' : Vec Ideal S8x512 .f32} (h5 : a5 = a5')
    {a6 a6' : Vec Ideal S1x512 .f32} (h6 : a6 = a6') {a7 a7' : Vec Ideal S16x512 .f32} (h7 : a7 = a7')
    {a8 a8' : Vec Ideal S16x512 .f32} (h8 : a8 = a8') {a9 a9' : Vec Ideal S16x512x1024 .bf16} (h9 : a9 = a9')
    {a10 a10' : Vec Ideal S1x1024 .f32} (h10 : a10 = a10') {a11 a11' : Vec Ideal S1x1024 .f32} (h11 : a11 = a11')
    {o o' : Fin 1024} (ho : o = o') :
    entry xr a1 a2 a3 a4 a5 a6 a7 a8 a9 a10 a11 o = entry xr' a1' a2' a3' a4' a5' a6' a7' a8' a9' a10' a11' o' := by
  subst hx h1 h2 h3 h4 h5 h6 h7 h8 h9 h10 h11 ho
  rfl

/-- Point `t` writes back block `t` of the whole-array function. -/
theorem flushed_eq (c : Dev nD) (t : Fin cfg0.N) :
    (dats m 0 c).flushed 12 t = ((cfg0.win 12).blk t).view.read (Elt Ideal) (outArray m c) := by
  obtain ⟨eo0, eo1, ex0, ex1, e1, e2, e3, e4, e5, e6, e7, e8, e9, e10, e11⟩ := idx_facts t
  rw [Value.flushed12]
  funext y
  rw [View.read_apply]
  refine (body_entry (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t)
    ((cfg0.win 12).xinj (grid0.coords t) y)).trans ?_
  refine entry_congr (funext fun d => ?_) (iblk1 m c t) (iblk2 m c t) (iblk3 m c t) (iblk4 m c t) (iblk5 m c t)
    (iblk6 m c t) (iblk7 m c t) (iblk8 m c t) (iblk9 m c t) (iblk10 m c t) (iblk11 m c t) (Fin.ext ?_)
  · refine iblk0 m c t _ _ ?_ rfl
    show win0_12.index t 0 * 1024 + 1 * (y 0).val = 1024 * t.val + (y 0).val
    rw [eo0]; omega
  · show (y 1).val = win0_12.index t 1 * 1024 + 1 * (y 1).val
    rw [eo1]; omega

/-! ## The blocks tile the array -/

/-- An index of the array is in point `t`'s block iff each coordinate is in the block's range on its axis. -/
theorem mem_blk (t : Fin cfg0.N) (i : S8192x1024.Idx) :
    i ∈ ((cfg0.win 12).blk t).view.set ↔ ∀ a : Fin 2, win0_12.index t a * S1024x1024.size a ≤ (i a).val
      ∧ (i a).val < win0_12.index t a * S1024x1024.size a + S1024x1024.size a := by
  show i ∈ ((View.whole main_v19).slice (win0_12.rect t)).set ↔ _
  rw [View.set_slice_whole, Rect.mem_set_unit]
  exact Iff.rfl

/-- Row `b` of the array lies in the block of point `b / 1024`. -/
theorem cover (i : S8192x1024.Idx) :
    ∃ t : Fin cfg0.N, (cfg0.win 12).flush t = true ∧ i ∈ ((cfg0.win 12).blk t).view.set := by
  have hi0 : (i 0).val < 8192 := (i 0).isLt
  have hi1 : (i 1).val < 1024 := (i 1).isLt
  have hN : cfg0.N = 8 := N_0
  have hlt : (i 0).val / 1024 < cfg0.N := by rw [hN]; omega
  refine ⟨⟨(i 0).val / 1024, hlt⟩, flush0_12 _, ?_⟩
  rw [mem_blk]
  obtain ⟨eo0, eo1, -⟩ := idx_facts ⟨(i 0).val / 1024, hlt⟩
  intro a
  match a with
  | ⟨0, _⟩ =>
    show win0_12.index ⟨(i 0).val / 1024, hlt⟩ 0 * 1024 ≤ (i 0).val
      ∧ (i 0).val < win0_12.index ⟨(i 0).val / 1024, hlt⟩ 0 * 1024 + 1024
    rw [eo0]
    show (i 0).val / 1024 * 1024 ≤ (i 0).val ∧ (i 0).val < (i 0).val / 1024 * 1024 + 1024
    omega
  | ⟨1, _⟩ =>
    show win0_12.index ⟨(i 0).val / 1024, hlt⟩ 1 * 1024 ≤ (i 1).val
      ∧ (i 1).val < win0_12.index ⟨(i 0).val / 1024, hlt⟩ 1 * 1024 + 1024
    rw [eo1]
    omega

/-- So the output array ends holding the whole-array function. -/
theorem final (c : Dev nD) : (dats m 0 c).arrAt 12 cfg0.N = outArray m c :=
  (dats m 0 c).arrAt_eq_of_cover 12 (outArray m c) (fun t _ => flushed_eq m c t) cover

/-! ## The run, read -/

/-- The kernel's run: the output array at the whole-array function, the arguments unchanged. -/
theorem run : θ_run defs (onTc (τ := τ) (main (F := Ideal))) ⟨m, fun _ => 0, ρ⟩ fun r => ∀ c : Dev nD,
      r.2.mem ((c : Thread nD τ).loc main_v19) = outArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

/-! ## The arguments as launched, each at its array type -/

/-- The input rows. -/
abbrev inX (c : Dev nD) : S8192x512.Idx → EReal := m ((c : Thread nD τ).loc main_arg0)
/-- The first layer's weights. -/
abbrev inW1 (c : Dev nD) : S512x8.Idx → EReal := m ((c : Thread nD τ).loc main_arg1)
/-- The first layer's bias. -/
abbrev inB1 (c : Dev nD) : S8.Idx → EReal := m ((c : Thread nD τ).loc main_arg2)
/-- The second layer's weights. -/
abbrev inW2 (c : Dev nD) : S8x8.Idx → EReal := m ((c : Thread nD τ).loc main_arg3)
/-- The second layer's bias. -/
abbrev inB2 (c : Dev nD) : S8.Idx → EReal := m ((c : Thread nD τ).loc main_arg4)
/-- The third layer's weights. -/
abbrev inW3 (c : Dev nD) : S8x512.Idx → EReal := m ((c : Thread nD τ).loc main_arg5)
/-- The third layer's bias. -/
abbrev inB3 (c : Dev nD) : S512.Idx → EReal := m ((c : Thread nD τ).loc main_arg6)
/-- The centers c(d, k). -/
abbrev inCen (c : Dev nD) : S512x16.Idx → EReal := m ((c : Thread nD τ).loc main_arg7)
/-- The log-widths λ(d, k). -/
abbrev inLam (c : Dev nD) : S512x16.Idx → EReal := m ((c : Thread nD τ).loc main_arg8)
/-- The output matrix, 8193 rows. -/
abbrev inWout (c : Dev nD) : S8193x1024.Idx → EReal := m ((c : Thread nD τ).loc main_arg9)
/-- The output bias. -/
abbrev inBout (c : Dev nD) : S1024.Idx → EReal := m ((c : Thread nD τ).loc main_arg10)

/-! ## The tables the host writes before the launch, read at an index -/

/-- The first layer's bias as the body finds it: the vector as a one-row matrix. -/
theorem v15_at (c : Dev nD) (i : Fin 8) :
    (V m c main_v15 : S1x8.Idx → EReal) (ix2 0 i) = (inB1 m c) (ix1 i) := by
  have e : (V m c main_v15 : S1x8.Idx → EReal)
      = shapeCast S1x8 (inB1 m c) shapeCasts_S8_S1x8 := by
    dsimp only [Gen.V, Gen.hostOps0]; after_results; rfl
  rw [e]
  exact shapeCast_a_1a_apply _ _ 0 i

/-- The second layer's bias as the body finds it: the vector as a one-row matrix. -/
theorem v16_at (c : Dev nD) (j : Fin 8) :
    (V m c main_v16 : S1x8.Idx → EReal) (ix2 0 j) = (inB2 m c) (ix1 j) := by
  have e : (V m c main_v16 : S1x8.Idx → EReal)
      = shapeCast S1x8 (inB2 m c) shapeCasts_S8_S1x8 := by
    dsimp only [Gen.V, Gen.hostOps0]; after_results; rfl
  rw [e]
  exact shapeCast_a_1a_apply _ _ 0 j

/-- The third layer's bias as the body finds it: the vector as a one-row matrix. -/
theorem v17_at (c : Dev nD) (d : Fin 512) :
    (V m c main_v17 : S1x512.Idx → EReal) (ix2 0 d) = (inB3 m c) (ix1 d) := by
  have e : (V m c main_v17 : S1x512.Idx → EReal)
      = shapeCast S1x512 (inB3 m c) shapeCasts_S512_S1x512 := by
    dsimp only [Gen.V, Gen.hostOps0]; after_results; rfl
  rw [e]
  exact shapeCast_a_1a_apply _ _ 0 d

/-- The output bias as the body finds it: the vector as a one-row matrix. -/
theorem v18_at (c : Dev nD) (o : Fin 1024) :
    (V m c main_v18 : S1x1024.Idx → EReal) (ix2 0 o) = (inBout m c) (ix1 o) := by
  have e : (V m c main_v18 : S1x1024.Idx → EReal)
      = shapeCast S1x1024 (inBout m c) shapeCasts_S1024_S1x1024 := by
    dsimp only [Gen.V, Gen.hostOps0]; after_results; rfl
  rw [e]
  exact shapeCast_a_1a_apply _ _ 0 o

/-- The scale table as the body finds it: s(k, d) = √2 / (e^{λ(d, k)} + tiny). -/
theorem v8_at (c : Dev nD) (k : Fin 16) (d : Fin 512) :
    (V m c main_v8 : S16x512.Idx → EReal) (ix2 k d)
      = Ideal.div (Ideal.sqrt Rbf.twoW)
          (Ideal.exp ((inLam m c) (ix2 d k)) + Rbf.tinyW) := by
  have e : (V m c main_v8 : S16x512.Idx → EReal)
      = transpose S16x512 [1, 0]
          (Host.divf (F := Ideal)
            (broadcastInDim S512x16 ![] bcast_S_S512x16 (Host.sqrt (F := Ideal) (constant (F := Ideal) S_ .f32 0x40000000#32)))
            (addf (Host.exp (F := Ideal) (inLam m c))
              (broadcastInDim S512x16 ![] bcast_S_S512x16 (constant (F := Ideal) S_ .f32 0x2B8CBCCC#32))))
          transposes_S512x16_S16x512_1_0 := by
    dsimp only [Gen.V, Gen.hostOps0]; after_results; rfl
  rw [e, transpose_ix2_apply]
  rfl

/-- The scaled-center table as the body finds it: cs(k, d) = c(d, k) · s(k, d). -/
theorem v9_at (c : Dev nD) (k : Fin 16) (d : Fin 512) :
    (V m c main_v9 : S16x512.Idx → EReal) (ix2 k d)
      = inCen m c (ix2 d k)
        * Ideal.div (Ideal.sqrt Rbf.twoW)
            (Ideal.exp ((inLam m c) (ix2 d k)) + Rbf.tinyW) := by
  have e : (V m c main_v9 : S16x512.Idx → EReal)
      = transpose S16x512 [1, 0]
          (mulf (inCen m c)
            (Host.divf (F := Ideal)
              (broadcastInDim S512x16 ![] bcast_S_S512x16 (Host.sqrt (F := Ideal) (constant (F := Ideal) S_ .f32 0x40000000#32)))
              (addf (Host.exp (F := Ideal) (inLam m c))
                (broadcastInDim S512x16 ![] bcast_S_S512x16 (constant (F := Ideal) S_ .f32 0x2B8CBCCC#32)))))
          transposes_S512x16_S16x512_1_0 := by
    dsimp only [Gen.V, Gen.hostOps0]; after_results; rfl
  rw [e, transpose_ix2_apply]
  rfl

/-- The output matrix's last row as the body finds it. -/
theorem v11_at (c : Dev nD) (o : Fin 1024) :
    (V m c main_v11 : S1x1024.Idx → EReal) (ix2 0 o)
      = (inWout m c) (ix2 Rbf.lastRow o) := by
  have e : (V m c main_v11 : S1x1024.Idx → EReal)
      = extractStridedSlice S1x1024 ![8192, 0] (inWout m c)
          slices_S8193x1024_S1x1024_8192_0 := by
    dsimp only [Gen.V, Gen.hostOps0]; after_results
  rw [e]
  exact slice2_axis0_apply 8192 _ _ 0 o Rbf.lastRow rfl

/-- The re-laid output matrix as the body finds it: slab k, row d holds row 16·d + k of the output matrix. -/
theorem v14_at (c : Dev nD) (k : Fin 16) (d : Fin 512) (o : Fin 1024) :
    (V m c main_v14 : S16x512x1024.Idx → EReal) (ix3 k d o)
      = (inWout m c) (ix2 (Rbf.featRow d k) o) := by
  have e : (V m c main_v14 : S16x512x1024.Idx → EReal)
      = (truncf (F := Ideal) .bf16
          (transpose S16x512x1024 [1, 0, 2]
            (shapeCast S512x16x1024
              (extractStridedSlice S8192x1024 ![0, 0] (inWout m c)
                slices_S8193x1024_S8192x1024_0_0)
              shapeCasts_S8192x1024_S512x16x1024)
            transposes_S512x16x1024_S16x512x1024_1_0_2)
          bitsLt_bf16_f32 : S16x512x1024.Idx → EReal) := by
    dsimp only [Gen.V, Gen.hostOps0]; after_results; rfl
  have hd : d.val < 512 := d.isLt
  have hk : k.val < 16 := k.isLt
  rw [e, truncf_apply]
  refine (transpose_apply _ _ _ _ (ix3 d k o) fun b => ?_).trans ?_
  · match b with
    | ⟨0, _⟩ => rfl
    | ⟨1, _⟩ => rfl
    | ⟨2, _⟩ => rfl
  refine (shapeCast_apply _ _ _ (ix2 (⟨16 * d.val + k.val, by omega⟩ : Fin 8192) o) ?_).trans ?_
  · rw [Shape.rowMajor_val_two, Shape.rowMajor_val_three]
    show (16 * d.val + k.val) * 1024 + o.val = (d.val * 16 + k.val) * 1024 + o.val
    omega
  · exact slice2_axis0_apply 0 _ _ _ o (Rbf.featRow d k) (by show 16 * d.val + k.val = 0 + (16 * d.val + k.val); omega)

/-! ## The output array in terms of the arguments as launched -/

/-- An entry over tables that read, at the indices the body uses, as given functions, is the scaled-basis arrangement
    over those functions. -/
theorem entry_eq (xr : Fin 512 → EReal) (a1 : Vec Ideal S512x8 .f32) (a2 : Vec Ideal S1x8 .f32) (a3 : Vec Ideal S8x8 .f32)
    (a4 : Vec Ideal S1x8 .f32) (a5 : Vec Ideal S8x512 .f32) (a6 : Vec Ideal S1x512 .f32) (a7 a8 : Vec Ideal S16x512 .f32)
    (a9 : Vec Ideal S16x512x1024 .bf16) (a10 a11 : Vec Ideal S1x1024 .f32) (o : Fin 1024)
    (W1 : Fin 512 → Fin 8 → EReal) (b1 : Fin 8 → EReal) (W2 : Fin 8 → Fin 8 → EReal) (b2 : Fin 8 → EReal)
    (W3 : Fin 8 → Fin 512 → EReal) (b3 : Fin 512 → EReal) (s cs : Fin 16 → Fin 512 → EReal)
    (wR : Fin 16 → Fin 512 → Fin 1024 → EReal) (wl bo : Fin 1024 → EReal)
    (h1 : ∀ d i, a1 (ix2 d i) = W1 d i) (h2 : ∀ i, a2 (ix2 0 i) = b1 i) (h3 : ∀ i j, a3 (ix2 i j) = W2 i j)
    (h4 : ∀ j, a4 (ix2 0 j) = b2 j) (h5 : ∀ j d, a5 (ix2 j d) = W3 j d) (h6 : ∀ d, a6 (ix2 0 d) = b3 d)
    (h7 : ∀ k d, a7 (ix2 k d) = s k d) (h8 : ∀ k d, a8 (ix2 k d) = cs k d) (h9 : ∀ k d o', a9 (ix3 k d o') = wR k d o')
    (h10 : ∀ o', a10 (ix2 0 o') = wl o') (h11 : ∀ o', a11 (ix2 0 o') = bo o') :
    entry xr a1 a2 a3 a4 a5 a6 a7 a8 a9 a10 a11 o
      = Rbf.outS (Rbf.warped W1 b1 W2 b2 W3 b3 xr) (Rbf.logdet W1 b1 W2 b2 W3 b3 xr) s cs wR wl bo o := by
  have e1 : (fun d i => a1 (ix2 d i)) = W1 := funext fun d => funext fun i => h1 d i
  have e2 : (fun i => a2 (ix2 0 i)) = b1 := funext h2
  have e3 : (fun i j => a3 (ix2 i j)) = W2 := funext fun i => funext fun j => h3 i j
  have e4 : (fun j => a4 (ix2 0 j)) = b2 := funext h4
  have e5 : (fun j d => a5 (ix2 j d)) = W3 := funext fun j => funext fun d => h5 j d
  have e6 : (fun d => a6 (ix2 0 d)) = b3 := funext h6
  have e7 : (fun k d => a7 (ix2 k d)) = s := funext fun k => funext fun d => h7 k d
  have e8 : (fun k d => a8 (ix2 k d)) = cs := funext fun k => funext fun d => h8 k d
  have e9 : (fun k d o' => a9 (ix3 k d o')) = wR := funext fun k => funext fun d => funext fun o' => h9 k d o'
  have e10 : (fun o' => a10 (ix2 0 o')) = wl := funext h10
  have e11 : (fun o' => a11 (ix2 0 o')) = bo := funext h11
  unfold entry
  rw [e1, e2, e3, e4, e5, e6, e7, e8, e9, e10, e11]

/-- Entry (b, o) of the output array: the scaled-basis arrangement of row b of the input, with the perceptron's weights and
    biases as launched, the scales √2 / (e^λ + tiny), the scaled centers, row 16·d + k of the output matrix at (k, d), its
    last row and the output bias. -/
theorem outArray_at (c : Dev nD) (b : Fin 8192) (o : Fin 1024) :
    outArray m c (ix2 b o)
      = Rbf.outS
          (Rbf.warped (fun d i => inW1 m c (ix2 d i)) (fun i => inB1 m c (ix1 i)) (fun i j => inW2 m c (ix2 i j))
            (fun j => inB2 m c (ix1 j)) (fun j d => inW3 m c (ix2 j d)) (fun d => inB3 m c (ix1 d))
            (fun d => inX m c (ix2 b d)))
          (Rbf.logdet (fun d i => inW1 m c (ix2 d i)) (fun i => inB1 m c (ix1 i)) (fun i j => inW2 m c (ix2 i j))
            (fun j => inB2 m c (ix1 j)) (fun j d => inW3 m c (ix2 j d)) (fun d => inB3 m c (ix1 d))
            (fun d => inX m c (ix2 b d)))
          (fun k d => Ideal.div (Ideal.sqrt Rbf.twoW) (Ideal.exp (inLam m c (ix2 d k)) + Rbf.tinyW))
          (fun k d => inCen m c (ix2 d k)
            * Ideal.div (Ideal.sqrt Rbf.twoW) (Ideal.exp (inLam m c (ix2 d k)) + Rbf.tinyW))
          (fun k d o' => inWout m c (ix2 (Rbf.featRow d k) o'))
          (fun o' => inWout m c (ix2 Rbf.lastRow o'))
          (fun o' => inBout m c (ix1 o')) o := by
  have hx : (fun d => (V m c main_arg0 : S8192x512.Idx → EReal) (ix2 ((ix2 b o : S8192x1024.Idx) 0) d))
      = fun d => inX m c (ix2 b d) := funext fun d => congrFun (V_main_arg0 m c) _
  unfold outArray
  rw [hx]
  exact entry_eq _ _ _ _ _ _ _ _ _ _ _ _ o _ _ _ _ _ _ _ _ _ _ _
    (fun d i => congrFun (V_main_arg1 m c) _) (v15_at m c) (fun i j => congrFun (V_main_arg3 m c) _) (v16_at m c)
    (fun j d => congrFun (V_main_arg5 m c) _) (v17_at m c) (v8_at m c) (v9_at m c) (v14_at m c) (v11_at m c)
    (v18_at m c)

end Cert.KernelIdeal.Array

end
-- ==== Proof.RefEntry.lean ====
/-
  The reference program's result, read at one entry (b, o), is the specification's quotient arrangement
  `Cert.Rbf.outQ` of row b of the input: every stage of the reference is read at an index, from the output back to
  the arguments.
-/
import proofs.«161492_j60722247631487_2_alg».proof.Proof.Gen.ReferenceIdeal.Read
import proofs.«161492_j60722247631487_2_alg».proof.Proof.RbfSpec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefEntry

open Cert.ReferenceIdeal Cert.ReferenceIdeal.Gen Cert.ReferenceIdeal.Read Idealize.ShloMosaic Idealize.ShloMosaic.ValueIdx

/-! ## Indices from their coordinates -/

/-- A rank-1 index with the given coordinate. -/
theorem mk1 {n : Nat} (a : Fin n) (j : (⟨1, ![n]⟩ : Shape).Idx) (h0 : (j 0).val = a.val) : j = ix1 a := by
  funext d; match d with | ⟨0, _⟩ => exact Fin.ext h0

/-- A rank-2 index with the given coordinates. -/
theorem mk2 {n0 n1 : Nat} (a : Fin n0) (c : Fin n1) (j : (⟨2, ![n0, n1]⟩ : Shape).Idx) (h0 : (j 0).val = a.val)
    (h1 : (j 1).val = c.val) : j = ix2 a c := by
  funext d; match d with | ⟨0, _⟩ => exact Fin.ext h0 | ⟨1, _⟩ => exact Fin.ext h1

/-- A rank-3 index with the given coordinates. -/
theorem mk3 {n0 n1 n2 : Nat} (a : Fin n0) (c : Fin n1) (e : Fin n2) (j : (⟨3, ![n0, n1, n2]⟩ : Shape).Idx)
    (h0 : (j 0).val = a.val) (h1 : (j 1).val = c.val) (h2 : (j 2).val = e.val) : j = ix3 a c e := by
  funext d; match d with | ⟨0, _⟩ => exact Fin.ext h0 | ⟨1, _⟩ => exact Fin.ext h1 | ⟨2, _⟩ => exact Fin.ext h2

/-! ## The perceptron's first layer -/

/-- The first layer before its activation: row b of the input against column i of the first weight matrix, plus the
    bias. -/
theorem pre1_at (x0 : (⟨S8192x512, .f32⟩ : BufTy).Contents (Elt Ideal)) (x1 : (⟨S512x8, .f32⟩ : BufTy).Contents (Elt Ideal)) (x2 : (⟨S8, .f32⟩ : BufTy).Contents (Elt Ideal)) (b : Fin 8192) (i : Fin 8) :
    val_main_v3 (F := Ideal) x0 x1 x2 (ix2 b i) = (∑ d : Fin 512, x0 (ix2 b d) * x1 (ix2 d i)) + x2 (ix1 i) := by
  have el : ∀ k, lidx_main_v0 (ix2 b i) k = ix2 b k := fun k => mk2 _ _ _ rfl rfl
  have er : ∀ k, ridx_main_v0 (ix2 b i) k = ix2 k i := fun k => mk2 _ _ _ rfl rfl
  have eb : idx_main_v1 (idx_main_v2 (ix2 b i)) = ix1 i := mk1 _ _ rfl
  rw [val_main_v3_apply, val_main_v0_apply, val_main_v2_apply, val_main_v1_apply, eb]
  simp only [el, er, Ideal.addf_def]

/-- The first hidden layer: SiLU, spelled as y · (1 / (1 + e^{−y})), is y · σ(y). -/
theorem hid1_at (x0 : (⟨S8192x512, .f32⟩ : BufTy).Contents (Elt Ideal)) (x1 : (⟨S512x8, .f32⟩ : BufTy).Contents (Elt Ideal)) (x2 : (⟨S8, .f32⟩ : BufTy).Contents (Elt Ideal)) (b : Fin 8192) (i : Fin 8) :
    val_main_v4 (F := Ideal) x0 x1 x2 (ix2 b i) = Cert.Rbf.hid1 (fun d i => x1 (ix2 d i)) (fun i => x2 (ix1 i)) (fun d => x0 (ix2 b d)) i := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, pre1_at]
  simp only [Ideal.mulf_def, Ideal.hostDivf_def, Ideal.addf_def, Ideal.hostUnary_exp_def, Ideal.hostNegf_def,
    Ideal.negf_def, Ideal.ofBits_def, Ideal.ofBits_one_f32]
  rfl

/-! ## The second and third layers, the metric, the warp and the log-determinant -/

/-- The second layer before its activation. -/
theorem pre2_at (x0 : (⟨S8192x512, .f32⟩ : BufTy).Contents (Elt Ideal)) (x1 : (⟨S512x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (b : Fin 8192) (j : Fin 8) :
    val_main_v8 (F := Ideal) x0 x1 x2 x3 x4 (ix2 b j)
      = (∑ i : Fin 8, Cert.Rbf.hid1 (fun d i => x1 (ix2 d i)) (fun i => x2 (ix1 i)) (fun d => x0 (ix2 b d)) i * x3 (ix2 i j)) + x4 (ix1 j) := by
  have el : ∀ k, lidx_main_v5 (ix2 b j) k = ix2 b k := fun k => mk2 _ _ _ rfl rfl
  have er : ∀ k, ridx_main_v5 (ix2 b j) k = ix2 k j := fun k => mk2 _ _ _ rfl rfl
  have eb : idx_main_v6 (idx_main_v7 (ix2 b j)) = ix1 j := mk1 _ _ rfl
  rw [val_main_v8_apply, val_main_v5_apply, val_main_v7_apply, val_main_v6_apply, eb]
  simp only [el, er, hid1_at, Ideal.addf_def]

/-- The second hidden layer. -/
theorem hid2_at (x0 : (⟨S8192x512, .f32⟩ : BufTy).Contents (Elt Ideal)) (x1 : (⟨S512x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (b : Fin 8192) (j : Fin 8) :
    val_main_v9 (F := Ideal) x0 x1 x2 x3 x4 (ix2 b j) = Cert.Rbf.hid2 (fun d i => x1 (ix2 d i)) (fun i => x2 (ix1 i)) (fun i j => x3 (ix2 i j)) (fun j => x4 (ix1 j)) (fun d => x0 (ix2 b d)) j := by
  rw [val_main_v9_apply, val_main_call1_v5_apply, val_main_call1_v4_apply, val_main_call1_cst_0_apply,
    val_main_call1_v3_apply, val_main_call1_v2_apply, val_main_call1_cst_apply, val_main_call1_v1_apply,
    val_main_call1_v0_apply, pre2_at]
  simp only [Ideal.mulf_def, Ideal.hostDivf_def, Ideal.addf_def, Ideal.hostUnary_exp_def, Ideal.hostNegf_def,
    Ideal.negf_def, Ideal.ofBits_def, Ideal.ofBits_one_f32]
  rfl

/-- The third layer before its activation. -/
theorem pre3_at (x0 : (⟨S8192x512, .f32⟩ : BufTy).Contents (Elt Ideal)) (x1 : (⟨S512x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (x5 : (⟨S8x512, .f32⟩ : BufTy).Contents (Elt Ideal)) (x6 : (⟨S512, .f32⟩ : BufTy).Contents (Elt Ideal)) (b : Fin 8192) (d : Fin 512) :
    val_main_v13 (F := Ideal) x0 x1 x2 x3 x4 x5 x6 (ix2 b d)
      = (∑ j : Fin 8, Cert.Rbf.hid2 (fun d i => x1 (ix2 d i)) (fun i => x2 (ix1 i)) (fun i j => x3 (ix2 i j)) (fun j => x4 (ix1 j)) (fun d => x0 (ix2 b d)) j * x5 (ix2 j d)) + x6 (ix1 d) := by
  have el : ∀ k, lidx_main_v10 (ix2 b d) k = ix2 b k := fun k => mk2 _ _ _ rfl rfl
  have er : ∀ k, ridx_main_v10 (ix2 b d) k = ix2 k d := fun k => mk2 _ _ _ rfl rfl
  have eb : idx_main_v11 (idx_main_v12 (ix2 b d)) = ix1 d := mk1 _ _ rfl
  rw [val_main_v13_apply, val_main_v10_apply, val_main_v12_apply, val_main_v11_apply, eb]
  simp only [el, er, hid2_at, Ideal.addf_def]

/-- An extended real never differs from itself, so the comparison "unordered or not equal" of a value with itself
    is the bit 0. -/
theorem cmp_une_self (a : EReal) : Ideal.cmp .une a a = 0#1 := by
  unfold Ideal.cmp; simp

/-- Softplus as the reference spells it — a guard on y − 0 ≠ y − 0, which never holds, around
    max(y, 0) + log1p(e^{−|y − 0|}) — is the specification's softplus. -/
theorem softplus_eq (y : EReal) :
    Scalar.select (Ideal.cmp .une (y - 0) (y - 0)) (y + 0)
        (max y 0 + Ideal.log1p (Ideal.exp (-(max (y - 0) (-(y - 0)))))) = Cert.Rbf.softplus y := by
  rw [cmp_une_self, select_zero, sub_zero]
  rfl

/-- The metric of row b at coordinate d. -/
theorem metric_at (x0 : (⟨S8192x512, .f32⟩ : BufTy).Contents (Elt Ideal)) (x1 : (⟨S512x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (x5 : (⟨S8x512, .f32⟩ : BufTy).Contents (Elt Ideal)) (x6 : (⟨S512, .f32⟩ : BufTy).Contents (Elt Ideal)) (b : Fin 8192) (d : Fin 512) :
    val_main_v16 (F := Ideal) x0 x1 x2 x3 x4 x5 x6 (ix2 b d)
      = Cert.Rbf.metric (fun d i => x1 (ix2 d i)) (fun i => x2 (ix1 i)) (fun i j => x3 (ix2 i j)) (fun j => x4 (ix1 j)) (fun j d => x5 (ix2 j d)) (fun d => x6 (ix1 d)) (fun d => x0 (ix2 b d)) d := by
  rw [val_main_v16_apply, val_main_v15_apply, val_main_cst_apply, val_main_v14_apply, val_main_call2_v4_apply,
    val_main_call2_v6_apply, val_main_call2_v11_apply, val_main_call2_v1_apply, val_main_call2_v10_apply,
    val_main_call2_v9_apply, val_main_call2_v8_apply, val_main_call2_v7_apply, val_main_call2_v3_apply,
    val_main_call2_v0_apply, val_main_call2_v2_apply, val_main_call2_v5_apply, val_main_call2_cst_apply, pre3_at]
  simp only [Ideal.addf_def, Ideal.subf_def, Ideal.maximumf_def, Ideal.hostUnary_exp_def, Ideal.hostUnary_log1p_def,
    Ideal.hostNegf_def, Ideal.negf_def, Ideal.hostAbsf_def, Ideal.absf_def, Ideal.cmpf_def, Ideal.ofBits_def,
    Ideal.ofBits_zero_f32]
  rw [softplus_eq]
  rfl

/-- The warped row b at coordinate d. -/
theorem warped_at (x0 : (⟨S8192x512, .f32⟩ : BufTy).Contents (Elt Ideal)) (x1 : (⟨S512x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (x5 : (⟨S8x512, .f32⟩ : BufTy).Contents (Elt Ideal)) (x6 : (⟨S512, .f32⟩ : BufTy).Contents (Elt Ideal)) (b : Fin 8192) (d : Fin 512) :
    val_main_v18 (F := Ideal) x0 x1 x2 x3 x4 x5 x6 (ix2 b d)
      = Cert.Rbf.warped (fun d i => x1 (ix2 d i)) (fun i => x2 (ix1 i)) (fun i j => x3 (ix2 i j)) (fun j => x4 (ix1 j)) (fun j d => x5 (ix2 j d)) (fun d => x6 (ix1 d)) (fun d => x0 (ix2 b d)) d := by
  rw [val_main_v18_apply, val_main_v17_apply, metric_at]
  simp only [Ideal.mulf_def, Ideal.hostUnary_sqrt_def]
  rfl

/-- The log-determinant of row b: the float sum starts from the word of zero. -/
theorem logdet_at (x0 : (⟨S8192x512, .f32⟩ : BufTy).Contents (Elt Ideal)) (x1 : (⟨S512x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (x5 : (⟨S8x512, .f32⟩ : BufTy).Contents (Elt Ideal)) (x6 : (⟨S512, .f32⟩ : BufTy).Contents (Elt Ideal)) (b : Fin 8192) :
    val_main_v36 (F := Ideal) x0 x1 x2 x3 x4 x5 x6 (ix1 b)
      = Cert.Rbf.logdet (fun d i => x1 (ix2 d i)) (fun i => x2 (ix1 i)) (fun i j => x3 (ix2 i j)) (fun j => x4 (ix1 j)) (fun j d => x5 (ix2 j d)) (fun d => x6 (ix1 d)) (fun d => x0 (ix2 b d)) := by
  have e : ∀ k, idx_main_v36 (ix1 b) k = ix2 b k := fun k => mk2 _ _ _ rfl rfl
  rw [val_main_v36_apply, val_main_cst_2_apply]
  simp only [e, val_main_v35_apply, metric_at, Ideal.hostUnary_log_def, Ideal.ofBits_def, Ideal.ofBits_zero_f32,
    zero_add]
  rfl

/-! ## The features, their flattening, and the column of log-determinants beside them -/

/-- Feature (d, k) of row b: the quotient form of the Gaussian basis function. -/
theorem feature_at (x0 : (⟨S8192x512, .f32⟩ : BufTy).Contents (Elt Ideal)) (x1 : (⟨S512x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (x5 : (⟨S8x512, .f32⟩ : BufTy).Contents (Elt Ideal)) (x6 : (⟨S512, .f32⟩ : BufTy).Contents (Elt Ideal)) (x7 : (⟨S512x16, .f32⟩ : BufTy).Contents (Elt Ideal)) (x8 : (⟨S512x16, .f32⟩ : BufTy).Contents (Elt Ideal)) (b : Fin 8192) (d : Fin 512) (k : Fin 16) :
    val_main_v33 (F := Ideal) x0 x1 x2 x3 x4 x5 x6 x7 x8 (ix3 b d k)
      = Cert.Rbf.basisQ (Cert.Rbf.warped (fun d i => x1 (ix2 d i)) (fun i => x2 (ix1 i)) (fun i j => x3 (ix2 i j)) (fun j => x4 (ix1 j)) (fun j d => x5 (ix2 j d)) (fun d => x6 (ix1 d)) (fun d => x0 (ix2 b d)) d) (x7 (ix2 d k)) (Ideal.exp (x8 (ix2 d k)) + Cert.Rbf.tinyW) := by
  have ez : idx_main_v23 (idx_main_v25 (ix3 b d k)) = ix2 b d := mk2 _ _ _ rfl rfl
  have ec : idx_main_v24 (idx_main_v26 (ix3 b d k)) = ix2 d k := mk2 _ _ _ rfl rfl
  have ew : idx_main_v20 (idx_main_v28 (ix3 b d k)) = ix2 d k := mk2 _ _ _ rfl rfl
  rw [val_main_v33_apply, val_main_v32_apply, val_main_v31_apply, val_main_cst_1_apply, val_main_v30_apply,
    val_main_v29_apply, val_main_v27_apply, val_main_v25_apply, val_main_v23_apply, ez, warped_at, val_main_v26_apply,
    val_main_v24_apply, ec, val_main_v28_apply, val_main_v22_apply, val_main_v20_apply, ew, val_main_v19_apply,
    val_main_v21_apply, val_main_cst_0_apply]
  simp only [Ideal.mulf_def, Ideal.subf_def, Ideal.addf_def, Ideal.hostDivf_def, Ideal.hostUnary_exp_def, Ideal.ofBits_def]
  rfl

/-- The flattening [8192, 512, 16] → [8192, 8192] is row-major: column 16·d + k holds feature (d, k). -/
theorem flat_at (x0 : (⟨S8192x512, .f32⟩ : BufTy).Contents (Elt Ideal)) (x1 : (⟨S512x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (x5 : (⟨S8x512, .f32⟩ : BufTy).Contents (Elt Ideal)) (x6 : (⟨S512, .f32⟩ : BufTy).Contents (Elt Ideal)) (x7 : (⟨S512x16, .f32⟩ : BufTy).Contents (Elt Ideal)) (x8 : (⟨S512x16, .f32⟩ : BufTy).Contents (Elt Ideal)) (b : Fin 8192) (d : Fin 512) (k : Fin 16) (f : Fin 8192) (hf : f.val = 16 * d.val + k.val) :
    val_main_v34 (F := Ideal) x0 x1 x2 x3 x4 x5 x6 x7 x8 (ix2 b f)
      = val_main_v33 (F := Ideal) x0 x1 x2 x3 x4 x5 x6 x7 x8 (ix3 b d k) := by
  rw [val_main_v34_apply]
  refine congrArg _ (mk3 _ _ _ _ ?_ ?_ ?_)
  · show (b.val * 8192 + f.val) / 8192 = b.val
    have := f.isLt; omega
  · show (b.val * 8192 + f.val) / 16 % 512 = d.val
    have := d.isLt; have := k.isLt; omega
  · show (b.val * 8192 + f.val) % 16 = k.val
    have := k.isLt; omega

/-- The joined matrix [features | log-determinant] at a column below 8192 is the feature matrix there. -/
theorem joined_left (x0 : (⟨S8192x512, .f32⟩ : BufTy).Contents (Elt Ideal)) (x1 : (⟨S512x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (x5 : (⟨S8x512, .f32⟩ : BufTy).Contents (Elt Ideal)) (x6 : (⟨S512, .f32⟩ : BufTy).Contents (Elt Ideal)) (x7 : (⟨S512x16, .f32⟩ : BufTy).Contents (Elt Ideal)) (x8 : (⟨S512x16, .f32⟩ : BufTy).Contents (Elt Ideal)) (b : Fin 8192) (f : Fin 8192) :
    val_main_v38 (F := Ideal) x0 x1 x2 x3 x4 x5 x6 x7 x8 (ix2 b f.castSucc)
      = val_main_v34 (F := Ideal) x0 x1 x2 x3 x4 x5 x6 x7 x8 (ix2 b f) := by
  unfold val_main_v38
  exact concatenate_pair_apply_left 1 _ _ concatenates_S8192x8192_S8192x1_S8192x8193_d1 (ix2 b f.castSucc) rfl (ix2 b f)
    (fun a => match a with | ⟨0, _⟩ => rfl | ⟨1, _⟩ => rfl)

/-- The joined matrix at its last column is the log-determinant of the row. -/
theorem joined_last (x0 : (⟨S8192x512, .f32⟩ : BufTy).Contents (Elt Ideal)) (x1 : (⟨S512x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (x5 : (⟨S8x512, .f32⟩ : BufTy).Contents (Elt Ideal)) (x6 : (⟨S512, .f32⟩ : BufTy).Contents (Elt Ideal)) (x7 : (⟨S512x16, .f32⟩ : BufTy).Contents (Elt Ideal)) (x8 : (⟨S512x16, .f32⟩ : BufTy).Contents (Elt Ideal)) (b : Fin 8192) :
    val_main_v38 (F := Ideal) x0 x1 x2 x3 x4 x5 x6 x7 x8 (ix2 b (Fin.last 8192))
      = Cert.Rbf.logdet (fun d i => x1 (ix2 d i)) (fun i => x2 (ix1 i)) (fun i j => x3 (ix2 i j)) (fun j => x4 (ix1 j)) (fun j d => x5 (ix2 j d)) (fun d => x6 (ix1 d)) (fun d => x0 (ix2 b d)) := by
  have e : idx_main_v37 (ix2 b (0 : Fin 1)) = ix1 b := mk1 _ _ rfl
  rw [← logdet_at, ← e, ← val_main_v37_apply]
  unfold val_main_v38
  exact concatenate_pair_apply_right 1 _ _ concatenates_S8192x8192_S8192x1_S8192x8193_d1 (ix2 b (Fin.last 8192)) rfl rfl
    (ix2 b (0 : Fin 1)) (fun a => match a with | ⟨0, _⟩ => fun _ => rfl | ⟨1, _⟩ => fun h => absurd rfl h) rfl

/-! ## The contraction against the output matrix -/

/-- Column index 16·d + k of the feature matrix, from the pair (d, k): a bijection between the pairs and the
    columns, with inverse f ↦ (f / 16, f % 16). -/
def colEquiv : Fin 512 × Fin 16 ≃ Fin 8192 where
  toFun p := ⟨16 * p.1.val + p.2.val, by have := p.1.isLt; have := p.2.isLt; omega⟩
  invFun f := (⟨f.val / 16, by have := f.isLt; omega⟩, ⟨f.val % 16, by omega⟩)
  left_inv p := by
    have h1 := p.1.isLt; have h2 := p.2.isLt
    refine Prod.ext (Fin.ext ?_) (Fin.ext ?_)
    · show (16 * p.1.val + p.2.val) / 16 = p.1.val; omega
    · show (16 * p.1.val + p.2.val) % 16 = p.2.val; omega
  right_inv f := by
    refine Fin.ext ?_
    show 16 * (f.val / 16) + f.val % 16 = f.val; omega

/-- The reference's result at entry (b, o): the contraction over the 8193 rows of the output matrix splits into
    the 8192 feature rows, re-indexed by (d, k) with row 16·d + k, and the last row, which meets the
    log-determinant; the bias is added last. -/
theorem ref_at (x0 : (⟨S8192x512, .f32⟩ : BufTy).Contents (Elt Ideal)) (x1 : (⟨S512x8, .f32⟩ : BufTy).Contents (Elt Ideal)) (x2 : (⟨S8, .f32⟩ : BufTy).Contents (Elt Ideal)) (x3 : (⟨S8x8, .f32⟩ : BufTy).Contents (Elt Ideal)) (x4 : (⟨S8, .f32⟩ : BufTy).Contents (Elt Ideal)) (x5 : (⟨S8x512, .f32⟩ : BufTy).Contents (Elt Ideal)) (x6 : (⟨S512, .f32⟩ : BufTy).Contents (Elt Ideal)) (x7 : (⟨S512x16, .f32⟩ : BufTy).Contents (Elt Ideal)) (x8 : (⟨S512x16, .f32⟩ : BufTy).Contents (Elt Ideal)) (x9 : (⟨S8193x1024, .f32⟩ : BufTy).Contents (Elt Ideal)) (x10 : (⟨S1024, .f32⟩ : BufTy).Contents (Elt Ideal)) (b : Fin 8192) (o : Fin 1024) :
    val_main_v42 (F := Ideal) x0 x1 x2 x3 x4 x5 x6 x7 x8 x9 x10 (ix2 b o)
      = Cert.Rbf.outQ (Cert.Rbf.warped (fun d i => x1 (ix2 d i)) (fun i => x2 (ix1 i)) (fun i j => x3 (ix2 i j)) (fun j => x4 (ix1 j)) (fun j d => x5 (ix2 j d)) (fun d => x6 (ix1 d)) (fun d => x0 (ix2 b d))) (Cert.Rbf.logdet (fun d i => x1 (ix2 d i)) (fun i => x2 (ix1 i)) (fun i j => x3 (ix2 i j)) (fun j => x4 (ix1 j)) (fun j d => x5 (ix2 j d)) (fun d => x6 (ix1 d)) (fun d => x0 (ix2 b d)))
          (fun d k => x7 (ix2 d k)) (fun d k => x8 (ix2 d k)) (fun f o' => x9 (ix2 f o')) (fun o' => x10 (ix1 o')) o := by
  have el : ∀ k, lidx_main_v39 (ix2 b o) k = ix2 b k := fun k => mk2 _ _ _ rfl rfl
  have er : ∀ k, ridx_main_v39 (ix2 b o) k = ix2 k o := fun k => mk2 _ _ _ rfl rfl
  have eb : idx_main_v40 (idx_main_v41 (ix2 b o)) = ix1 o := mk1 _ _ rfl
  rw [val_main_v42_apply, val_main_v39_apply, val_main_v41_apply, val_main_v40_apply, eb]
  simp only [el, er, Ideal.addf_def]
  rw [Fin.sum_univ_castSucc, joined_last, ← Equiv.sum_comp colEquiv, Fintype.sum_prod_type]
  unfold Cert.Rbf.outQ
  refine congrArg (· + x10 (ix1 o)) (congrArg (· + _) ?_)
  refine Finset.sum_congr rfl fun d _ => Finset.sum_congr rfl fun k _ => ?_
  rw [joined_left, flat_at x0 x1 x2 x3 x4 x5 x6 x7 x8 b d k (colEquiv (d, k)) rfl, feature_at]
  rfl

end Cert.ReferenceIdeal.RefEntry

end
-- ==== Proof.FiniteArgs.lean ====
/-
  Finiteness of two argument arrays, read off the precondition. The precondition is one bit: the conjunction, over
  the eleven argument arrays, of "every entry x has |x| < +∞". At the ideal instance an entry is an extended real,
  |x| is max(x, −x), and |x| < +∞ excludes exactly x = +∞ and x = −∞; so every entry of every array is a real
  number. Only the centers and the log-widths are needed.
-/
import proofs.«161492_j60722247631487_2_alg».proof.Defs
import proofs.«161492_j60722247631487_2_alg».proof.Proof.Gen.Pre_finite_inputs
import Idealize.ShloMosaic.Lib.ReduceAll
import Idealize.ShloMosaic.Lib.ValueIdx
import Idealize.ShloMosaic.PureOps.Ideal.Laws

noncomputable section

namespace Cert.FiniteArgs

open Idealize.ShloMosaic Idealize.ShloMosaic.ValueIdx Idealize.SL.Sem

/-- The scalar shape has one index. -/
instance : Subsingleton Cert.Pre_finite_inputs.S_.Idx := ⟨fun a b => funext fun d => d.elim0⟩

/-- An extended real whose absolute value max(x, −x) is below the word of +∞ is a real number. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec
  · simp [Ideal.cmp] at h
  · exact ⟨_, rfl⟩
  · simp [Ideal.cmp] at h

section
open Cert.Pre_finite_inputs
variable [hP : Cert.Pre_finite_inputs.Facts]

/-- If the precondition's bit is 1 then every center and every log-width is a real number: the bit is a
    conjunction of eleven bits, one per array, and the eighth and ninth say that every entry of the centers and of
    the log-widths has absolute value below +∞. -/
theorem real_of_fn (a0 : FVec Ideal S8192x512 .f32) (a1 : FVec Ideal S512x8 .f32) (a2 : FVec Ideal S8 .f32)
    (a3 : FVec Ideal S8x8 .f32) (a4 : FVec Ideal S8 .f32) (a5 : FVec Ideal S8x512 .f32) (a6 : FVec Ideal S512 .f32)
    (a7 : FVec Ideal S512x16 .f32) (a8 : FVec Ideal S512x16 .f32) (a9 : FVec Ideal S8193x1024 .f32)
    (a10 : FVec Ideal S1024 .f32)
    (h : Cert.Pre_finite_inputs.fn (F := Ideal) a0 a1 a2 a3 a4 a5 a6 a7 a8 a9 a10 = fun _ => 1#1) :
    (∀ i, ∃ r : ℝ, a7 i = (r : EReal)) ∧ (∀ i, ∃ r : ℝ, a8 i = (r : EReal)) := by
  have h0 := congrFun h ix0
  dsimp only [fn, fn_part1, fn_part2, fn_part3] at h0
  obtain ⟨h1, -⟩ := IntOp.andi_eq_one.1 h0
  obtain ⟨h2, -⟩ := IntOp.andi_eq_one.1 h1
  obtain ⟨h3, h8⟩ := IntOp.andi_eq_one.1 h2
  obtain ⟨-, h7⟩ := IntOp.andi_eq_one.1 h3
  exact ⟨fun i => real_of_abs_lt (a7 i) (Host.reduce_andi_all _ _ _ _ ix0 h7 i),
    fun i => real_of_abs_lt (a8 i) (Host.reduce_andi_all _ _ _ _ ix0 h8 i)⟩

end

/-! ## The same, for the kernel's memory at the ideal instance -/

section
variable [hP : Cert.Pre_finite_inputs.Facts]
  (m : (ℓ : Loc Cert.KernelIdeal.nD Cert.KernelIdeal.τ Cert.KernelIdeal.sig) → Buf (Elt Ideal) ℓ)

/-- Under the precondition every center c_{d,k} is a real number. -/
theorem centers_real (h : Cert.Pre_KernelIdeal m) (c : Dev Cert.KernelIdeal.nD) (d : Fin 512) (k : Fin 16) :
    ∃ r : ℝ, m ((c.tc : Thread Cert.KernelIdeal.nD Cert.KernelIdeal.τ).loc Cert.KernelIdeal.main_arg7) (ix2 d k)
      = (r : EReal) :=
  (real_of_fn _ _ _ _ _ _ _ _ _ _ _ (h c)).1 (ix2 d k)

/-- Under the precondition every log-width λ_{d,k} is a real number. -/
theorem logw_real (h : Cert.Pre_KernelIdeal m) (c : Dev Cert.KernelIdeal.nD) (d : Fin 512) (k : Fin 16) :
    ∃ r : ℝ, m ((c.tc : Thread Cert.KernelIdeal.nD Cert.KernelIdeal.τ).loc Cert.KernelIdeal.main_arg8) (ix2 d k)
      = (r : EReal) :=
  (real_of_fn _ _ _ _ _ _ _ _ _ _ _ (h c)).2 (ix2 d k)

end

end Cert.FiniteArgs

end
-- ==== Proof.lean ====
/-
  A radial-basis layer behind a learned diagonal metric: the blocked kernel against its plain reference, over the
  extended reals.

  Both programs send each input row x through a three-layer perceptron (SiLU, SiLU, softplus plus a floor) to a positive
  metric g, warp the row to z = x·√g, take log det = ∑ log g, expand every warped coordinate in sixteen Gaussian basis
  functions, and contract the 8192 features and log det against the 8193 rows of the output matrix, plus a bias.

  The reference evaluates exp(−2·((z − c)/w)²) with w = e^λ + tiny and contracts over all 8193 rows at once. The kernel
  works on blocks of 1024 rows; the host first tabulates s = √2/w and c·s, and re-lays the output matrix by basis index;
  the body evaluates exp(0 − (z·s − c·s)²) and adds sixteen [1024,512]·[512,1024] products from zero, then log det times
  the last row, then the bias.

  The proof has four parts. (1) The body's stored block, entry by entry, is the blockwise arrangement of the output entry
  of the block's row (Proof/KernelBody.lean). (2) The blocks tile the output array, and the host's tables are what they
  are meant to be, so the kernel's result at (b, o) is the blockwise arrangement for row b with s, c·s and the re-laid
  matrix written through the inputs (Proof/KernelArray.lean). (3) The reference's result at (b, o) is the row-by-row
  arrangement (Proof/RefEntry.lean). (4) For real centers and log-widths — which the precondition gives
  (Proof/FiniteArgs.lean) — the two arrangements are equal: (√2)² = 2 for a finite z, both exponentials vanish for an
  infinite z, and the sums differ only in their order (Proof/RbfLaws.lean). Nothing else about the inputs is used: the
  warped coordinate z may be any extended real.

  The three frames are the generated ones; the idealization changed nothing that needs a statement.
-/
import proofs.«161492_j60722247631487_2_alg».proof.Defs
import proofs.«161492_j60722247631487_2_alg».proof.Proof.Gen.Kernel
import proofs.«161492_j60722247631487_2_alg».proof.Proof.Gen.Kernel.Frame
import proofs.«161492_j60722247631487_2_alg».proof.Proof.Gen.KernelIdeal
import proofs.«161492_j60722247631487_2_alg».proof.Proof.Gen.KernelIdeal.Frame
import proofs.«161492_j60722247631487_2_alg».proof.Proof.Gen.KernelIdeal.Value
import proofs.«161492_j60722247631487_2_alg».proof.Proof.Gen.ReferenceIdeal
import proofs.«161492_j60722247631487_2_alg».proof.Proof.Gen.ReferenceIdeal.Run
import proofs.«161492_j60722247631487_2_alg».proof.Proof.Gen.ReferenceIdeal.Read
import proofs.«161492_j60722247631487_2_alg».proof.Proof.Gen.Pre_finite_inputs
import proofs.«161492_j60722247631487_2_alg».proof.Proof.RbfLaws
import proofs.«161492_j60722247631487_2_alg».proof.Proof.KernelArray
import proofs.«161492_j60722247631487_2_alg».proof.Proof.RefEntry
import proofs.«161492_j60722247631487_2_alg».proof.Proof.FiniteArgs
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Entry by entry the kernel's output array and the reference's result are the two arrangements of one sum. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.KernelIdeal.Array.outArray m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v42_eq, h0, h1, h2, h3, h4, h5, h6, h7, h8, h9, h10]
  funext i
  obtain ⟨b, o, rfl⟩ : ∃ (b : Fin 8192) (o : Fin 1024), i = ValueIdx.ix2 b o := ⟨i 0, i 1, ValueIdx.eq_ix2 i⟩
  rw [Cert.ReferenceIdeal.RefEntry.ref_at]
  refine ((Cert.KernelIdeal.Array.outArray_at m c b o).trans ?_).symm
  exact Cert.Rbf.outS_eq_outQ
    (Cert.Rbf.warped (fun d i => Cert.KernelIdeal.Array.inW1 m c (ValueIdx.ix2 d i)) (fun i => Cert.KernelIdeal.Array.inB1 m c (ValueIdx.ix1 i))
      (fun i j => Cert.KernelIdeal.Array.inW2 m c (ValueIdx.ix2 i j)) (fun j => Cert.KernelIdeal.Array.inB2 m c (ValueIdx.ix1 j))
      (fun j d => Cert.KernelIdeal.Array.inW3 m c (ValueIdx.ix2 j d)) (fun d => Cert.KernelIdeal.Array.inB3 m c (ValueIdx.ix1 d))
      (fun d => Cert.KernelIdeal.Array.inX m c (ValueIdx.ix2 b d)))
    (Cert.Rbf.logdet (fun d i => Cert.KernelIdeal.Array.inW1 m c (ValueIdx.ix2 d i)) (fun i => Cert.KernelIdeal.Array.inB1 m c (ValueIdx.ix1 i))
      (fun i j => Cert.KernelIdeal.Array.inW2 m c (ValueIdx.ix2 i j)) (fun j => Cert.KernelIdeal.Array.inB2 m c (ValueIdx.ix1 j))
      (fun j d => Cert.KernelIdeal.Array.inW3 m c (ValueIdx.ix2 j d)) (fun d => Cert.KernelIdeal.Array.inB3 m c (ValueIdx.ix1 d))
      (fun d => Cert.KernelIdeal.Array.inX m c (ValueIdx.ix2 b d)))
    (fun d k => Cert.KernelIdeal.Array.inCen m c (ValueIdx.ix2 d k)) (fun d k => Cert.KernelIdeal.Array.inLam m c (ValueIdx.ix2 d k))
    (fun f o' => Cert.KernelIdeal.Array.inWout m c (ValueIdx.ix2 f o')) (fun o' => Cert.KernelIdeal.Array.inBout m c (ValueIdx.ix1 o'))
    (fun d k => Cert.FiniteArgs.centers_real (hP := Cert.Pre_finite_inputs.Gen.facts) m hpre c d k)
    (fun d k => Cert.FiniteArgs.logw_real (hP := Cert.Pre_finite_inputs.Gen.facts) m hpre c d k) o

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
